-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S10000x64 : Shape := ⟨2, ![10000, 64]⟩
abbrev S10000x1 : Shape := ⟨2, ![10000, 1]⟩

abbrev nBuf : Space → Nat
  | .hbm => 58
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .i32⟩
  | .hbm, ⟨26, _⟩ => ⟨S1600000, .i32⟩
  | .hbm, ⟨27, _⟩ => ⟨S_, .i32⟩
  | .hbm, ⟨28, _⟩ => ⟨S100000, .i32⟩
  | .hbm, ⟨29, _⟩ => ⟨S1600000x1, .i32⟩
  | .hbm, ⟨30, _⟩ => ⟨S100000, .i32⟩
  | .hbm, ⟨31, _⟩ => ⟨S100000, .f32⟩
  | .hbm, ⟨32, _⟩ => ⟨S100000x1, .f32⟩
  | .hbm, ⟨33, _⟩ => ⟨S1x64, .f32⟩
  | .hbm, ⟨34, _⟩ => ⟨S100000x64, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S1600000x1, .i32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S_, .i32⟩
  | .hbm, ⟨51, _⟩ => ⟨S100000, .i32⟩
  | .hbm, ⟨52, _⟩ => ⟨S1600000x1, .i32⟩
  | .hbm, ⟨53, _⟩ => ⟨S100000, .i32⟩
  | .hbm, ⟨54, _⟩ => ⟨S100000, .f32⟩
  | .hbm, ⟨55, _⟩ => ⟨S100000x1, .f32⟩
  | .hbm, ⟨56, _⟩ => ⟨S1x64, .f32⟩
  | .hbm, ⟨57, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x1, .f32⟩
  | .local _ .vmem, ⟨14, _⟩ => ⟨S10000x1, .f32⟩
  | .local _ .vmem, ⟨15, _⟩ => ⟨S10000x64, .f32⟩
  | .local _ .vmem, ⟨16, _⟩ => ⟨S10000x64, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S10000x64, .f32⟩
  | .local _ .vmem, ⟨21, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  shapeCasts_S64_S1x64 : S64.ShapeCasts S1x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S10000x1_S10000x64 : S10000x1.Broadcasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v13) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v31) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/- The run of the kernel program, with its result.

   The program is two regions, each preceded by a stretch of host operations. The generated frame follows every
   unscoped buffer from the launch memory through the four segments to the contents `Gen.W4`. Here the same run is
   read once more at its end: the result array holds what the second region's write-backs leave, and each of the
   eight argument arrays holds what it held at launch. -/
import proofs.«133622_j26018911879756_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters, every weakly fair execution of the program on the TensorCores terminates
    without a fault, and in every final state the result array holds the contents the second region's write-backs
    leave (`Gen.W4` at the result buffer) while every argument array holds what it held at launch. The final thread
    state has every unscoped buffer at `Gen.W4`; the result buffer is one of them, and each argument walks back
    through the segments to the launch memory. -/
theorem run_value : θ_run defs (onTc (τ := τ) (main (F := F))) ⟨m, fun _ => 0, ρ⟩ (fun r => ∀ c : Dev nD,
      r.2.mem ((c.tc : Thread nD τ).loc main_v39) = Gen.W4 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v39 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.KernelHost.lean ====
/- What each region of the kernel program finds in the arrays its windows read.

   Before each region the program runs a stretch of host operations on whole arrays. From the edge list (two rows of
   1600000 entries: sources, then targets) it takes the source positions (a negative source moved up by the number
   of nodes) and the target positions, each as a one-column array; it gathers the rows of the node features at the
   source positions and adds them up at the target positions into an array of zeros (the sum of the neighbours'
   rows, node by node); it adds up ones at the target positions, in 32-bit integers, into zeros (the number of
   edges arriving at each node), converts that count to a float and keeps it as a one-column array; and it keeps
   the bias vector as a one-row matrix. The second stretch does the same with the first region's output in place of
   the node features.

   This module names those whole-array functions and proves that, when a region starts, each array its windows read
   holds the corresponding function of the launch arrays (and, for the second region, of the first region's output),
   and that the program's result array ends at what the second region's write-backs leave. -/
import proofs.«133622_j26018911879756_2_alg».proof.Proof.Gen.KernelIdeal.Frame

set_option maxRecDepth 16384

noncomputable section

namespace Cert.KernelIdeal.HostSide

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The host-side functions, on whole arrays -/

/-- The source row of the edge list, as a vector of 1600000 entries. -/
def srcRow (e : IVec S2x1600000 32) : IVec S1600000 32 :=
  shapeCast S1600000 (extractStridedSlice S1x1600000 ![0, 0] e slices_S2x1600000_S1x1600000_0_0) shapeCasts_S1x1600000_S1600000

/-- The target row of the edge list, as a vector of 1600000 entries. -/
def dstRow (e : IVec S2x1600000 32) : IVec S1600000 32 :=
  shapeCast S1600000 (extractStridedSlice S1x1600000 ![1, 0] e slices_S2x1600000_S1x1600000_1_0) shapeCasts_S1x1600000_S1600000

/-- Source positions from a source row, as a one-column array: a negative source is moved up by 100000 (the number
    of nodes), any other is kept. -/
def srcPosOf (r : IVec S1600000 32) : IVec S1600000x1 32 :=
  broadcastInDim S1600000x1 ![0] bcast_S1600000_S1600000x1_0
    (select (cmpi .slt r (broadcastInDim S1600000 ![] bcast_S_S1600000 (constantI S_ 32 0#32)))
      (addi r (broadcastInDim S1600000 ![] bcast_S_S1600000 (constantI S_ 32 100000#32)))
      r)

/-- Target positions from a target row, as a one-column array. -/
def dstPosOf (r : IVec S1600000 32) : IVec S1600000x1 32 :=
  broadcastInDim S1600000x1 ![0] bcast_S1600000_S1600000x1_0 r

/-- The neighbour sum from the two rows: the rows of `x` at the source positions, added up at the target positions
    into zeros. -/
def aggSumOf (x : FVec F S100000x64 .f32) (rs rd : IVec S1600000 32) : FVec F S100000x64 .f32 :=
  Host.scatterAdd scatter_S100000x64_S1600000x1_S1600000x64_1_0_0_1
    (broadcastInDim S100000x64 ![] bcast_S_S100000x64 (constant S_ .f32 0x00000000#32))
    (dstPosOf rd)
    (Host.gather gather_S100000x64_S1600000x1_S1600000x64_1_0_n_n_0_1_164 x (srcPosOf rs))

/-- The number of edges arriving at each node from the target row, in 32-bit integers: ones added up at the target
    positions into zeros. -/
def cntIOf (rd : IVec S1600000 32) : IVec S100000 32 :=
  Host.scatter scatter_S100000_S1600000x1_S1600000_n_0_0_1 IntOp.addi
    (broadcastInDim S100000 ![] bcast_S_S100000 (constantI S_ 32 0#32))
    (dstPosOf rd)
    (broadcastInDim S1600000 ![] bcast_S_S1600000 (constantI S_ 32 1#32))

/-- That count converted to a float, as a one-column array. -/
def cntColOf (rd : IVec S1600000 32) : FVec F S100000x1 .f32 :=
  shapeCast S100000x1 (sitofp .f32 (cntIOf rd)) shapeCasts_S100000_S100000x1

/-- The source positions of an edge list, as a one-column array. -/
def srcPos (e : IVec S2x1600000 32) : IVec S1600000x1 32 := srcPosOf (srcRow e)

/-- The target positions of an edge list, as a one-column array. -/
def dstPos (e : IVec S2x1600000 32) : IVec S1600000x1 32 := dstPosOf (dstRow e)

/-- The neighbour sum over an edge list: the rows of `x` at the source positions, added up at the target positions
    into zeros. -/
def aggSum (x : FVec F S100000x64 .f32) (e : IVec S2x1600000 32) : FVec F S100000x64 .f32 :=
  aggSumOf x (srcRow e) (dstRow e)

/-- The number of edges of an edge list arriving at each node, in 32-bit integers. -/
def cntI (e : IVec S2x1600000 32) : IVec S100000 32 := cntIOf (dstRow e)

/-- That count converted to a float, as a one-column array. -/
def cntCol (e : IVec S2x1600000 32) : FVec F S100000x1 .f32 := cntColOf (dstRow e)

/-- The neighbour sum, every operation written out: the rows of `x` gathered at the source positions and added up
    at the target positions into an array of zeros. -/
theorem aggSum_eq (x : FVec F S100000x64 .f32) (e : IVec S2x1600000 32) : aggSum x e =
    Host.scatterAdd scatter_S100000x64_S1600000x1_S1600000x64_1_0_0_1
      (broadcastInDim S100000x64 ![] bcast_S_S100000x64 (constant S_ .f32 0x00000000#32))
      (dstPos e)
      (Host.gather gather_S100000x64_S1600000x1_S1600000x64_1_0_n_n_0_1_164 x (srcPos e)) := rfl

/-- The integer count, every operation written out. -/
theorem cntI_eq (e : IVec S2x1600000 32) : cntI e =
    Host.scatter scatter_S100000_S1600000x1_S1600000_n_0_0_1 IntOp.addi
      (broadcastInDim S100000 ![] bcast_S_S100000 (constantI S_ 32 0#32))
      (dstPos e)
      (broadcastInDim S1600000 ![] bcast_S_S1600000 (constantI S_ 32 1#32)) := rfl

/-- The count column, every operation written out. -/
theorem cntCol_eq (e : IVec S2x1600000 32) : (cntCol e : FVec F S100000x1 .f32) =
    shapeCast S100000x1 (sitofp .f32 (cntI e)) shapeCasts_S100000_S100000x1 := rfl

/-- A bias vector as a one-row matrix. -/
def biasRow (b : FVec F S64 .f32) : FVec F S1x64 .f32 :=
  shapeCast S1x64 b shapeCasts_S64_S1x64

/-! ## The first region's entry -/

variable (m : (ℓ : Loc nD τ sig) → Buf (Elt F) ℓ) (ρ : Dev nD → PrngReg) (c : Dev nD)

/-- The first region's output array once the region has run: what its write-backs leave. -/
abbrev out0 : FVec F S100000x64 .f32 := (Gen.dat0 (Gen.V1 m ρ) c).arrAt 6 cfg0.N

/-- The second region's output array once the region has run: what its write-backs leave. -/
abbrev out1 : FVec F S100000x64 .f32 := (Gen.dat1 (Gen.V3 m ρ) c).arrAt 6 cfg1.N

/-- When the first region starts, its first window's array holds the neighbour sum of the node features. -/
theorem V1_v13 : Gen.V1 m ρ c main_v13
    = aggSum (m ((c : Thread nD τ).loc main_arg0)) (m ((c : Thread nD τ).loc main_arg1)) := by
  show StableHlo.after hostOps0 (W0 m ρ c) (Proc.devRef .tc main_v13) = _
  after_results
  rfl

/-- When the first region starts, its second window's array holds the count column of the edge list. -/
theorem V1_v19 : Gen.V1 m ρ c main_v19 = cntCol (m ((c : Thread nD τ).loc main_arg1)) := by
  show StableHlo.after hostOps0 (W0 m ρ c) (Proc.devRef .tc main_v19) = _
  after_results
  rfl

/-- When the first region starts, its fifth window's array holds the first bias as a one-row matrix. -/
theorem V1_v20 : Gen.V1 m ρ c main_v20 = biasRow (m ((c : Thread nD τ).loc main_arg3)) := by
  show StableHlo.after hostOps0 (W0 m ρ c) (Proc.devRef .tc main_v20) = _
  after_results
  rfl

/-- No host operation of the first stretch writes the node features: the region finds them as launched. -/
theorem V1_arg0 : Gen.V1 m ρ c main_arg0 = m ((c : Thread nD τ).loc main_arg0) := by
  show StableHlo.after hostOps0 (W0 m ρ c) (Proc.devRef .tc main_arg0) = _
  after_results <;> rfl

/-- The first weight matrix of the first layer is as launched when the first region starts. -/
theorem V1_arg2 : Gen.V1 m ρ c main_arg2 = m ((c : Thread nD τ).loc main_arg2) := by
  show StableHlo.after hostOps0 (W0 m ρ c) (Proc.devRef .tc main_arg2) = _
  after_results <;> rfl

/-- The second weight matrix of the first layer is as launched when the first region starts. -/
theorem V1_arg4 : Gen.V1 m ρ c main_arg4 = m ((c : Thread nD τ).loc main_arg4) := by
  show StableHlo.after hostOps0 (W0 m ρ c) (Proc.devRef .tc main_arg4) = _
  after_results <;> rfl

/-! ## Between the regions

The first region writes only its output array. Every other buffer is, at the region's exit, what the first stretch
of host operations left there: in particular the two rows of the edge list, which the second stretch reads again,
and the arguments. -/

/-- At the first region's exit its output array holds what the region's write-backs leave. -/
theorem W2_v21 : Gen.W2 m ρ c (Proc.devRef .tc main_v21) = out0 m ρ c := Gen.W2_arr m ρ c 6

/-- At the first region's exit the source row of the edge list is still in place. -/
theorem W2_v1 : Gen.W2 m ρ c (Proc.devRef .tc main_v1) = srcRow (m ((c : Thread nD τ).loc main_arg1)) :=
  (Gen.W2_of_ne m ρ c main_v1 (by decide)).trans (by
    show StableHlo.after hostOps0 (W0 m ρ c) (Proc.devRef .tc main_v1) = _
    after_results
    rfl)

/-- At the first region's exit the target row of the edge list is still in place. -/
theorem W2_v3 : Gen.W2 m ρ c (Proc.devRef .tc main_v3) = dstRow (m ((c : Thread nD τ).loc main_arg1)) :=
  (Gen.W2_of_ne m ρ c main_v3 (by decide)).trans (by
    show StableHlo.after hostOps0 (W0 m ρ c) (Proc.devRef .tc main_v3) = _
    after_results
    rfl)

/-- At the first region's exit the second layer's first weight matrix is as launched. -/
theorem W2_arg5 : Gen.W2 m ρ c (Proc.devRef .tc main_arg5) = m ((c : Thread nD τ).loc main_arg5) :=
  (Gen.W2_of_ne m ρ c main_arg5 (by decide)).trans (by
    show StableHlo.after hostOps0 (W0 m ρ c) (Proc.devRef .tc main_arg5) = _
    after_results <;> rfl)

/-- At the first region's exit the second layer's bias is as launched. -/
theorem W2_arg6 : Gen.W2 m ρ c (Proc.devRef .tc main_arg6) = m ((c : Thread nD τ).loc main_arg6) :=
  (Gen.W2_of_ne m ρ c main_arg6 (by decide)).trans (by
    show StableHlo.after hostOps0 (W0 m ρ c) (Proc.devRef .tc main_arg6) = _
    after_results <;> rfl)

/-- At the first region's exit the second layer's second weight matrix is as launched. -/
theorem W2_arg7 : Gen.W2 m ρ c (Proc.devRef .tc main_arg7) = m ((c : Thread nD τ).loc main_arg7) :=
  (Gen.W2_of_ne m ρ c main_arg7 (by decide)).trans (by
    show StableHlo.after hostOps0 (W0 m ρ c) (Proc.devRef .tc main_arg7) = _
    after_results <;> rfl)

/-! ## The second region's entry -/

/-- No host operation of the second stretch writes the first region's output: the second region finds it as the
    first region left it. -/
theorem V3_v21 : Gen.V3 m ρ c main_v21 = out0 m ρ c := by
  show StableHlo.after hostOps1 (Gen.W2 m ρ c) (Proc.devRef .tc main_v21) = _
  after_results
  exact W2_v21 m ρ c

/-- When the second region starts, its first window's array holds the neighbour sum of the first region's
    output. -/
theorem V3_v31 : Gen.V3 m ρ c main_v31 = aggSum (out0 m ρ c) (m ((c : Thread nD τ).loc main_arg1)) := by
  have h : Gen.V3 m ρ c main_v31 = aggSumOf (Gen.W2 m ρ c (Proc.devRef .tc main_v21))
      (Gen.W2 m ρ c (Proc.devRef .tc main_v1)) (Gen.W2 m ρ c (Proc.devRef .tc main_v3)) := by
    show StableHlo.after hostOps1 (Gen.W2 m ρ c) (Proc.devRef .tc main_v31) = _
    after_results
    rfl
  rw [h, W2_v21, W2_v1, W2_v3]
  rfl

/-- When the second region starts, its second window's array holds the count column of the edge list. -/
theorem V3_v37 : Gen.V3 m ρ c main_v37 = cntCol (m ((c : Thread nD τ).loc main_arg1)) := by
  have h : Gen.V3 m ρ c main_v37 = cntColOf (Gen.W2 m ρ c (Proc.devRef .tc main_v3)) := by
    show StableHlo.after hostOps1 (Gen.W2 m ρ c) (Proc.devRef .tc main_v37) = _
    after_results
    rfl
  rw [h, W2_v3]
  rfl

/-- When the second region starts, its fifth window's array holds the second bias as a one-row matrix. -/
theorem V3_v38 : Gen.V3 m ρ c main_v38 = biasRow (m ((c : Thread nD τ).loc main_arg6)) := by
  have h : Gen.V3 m ρ c main_v38 = biasRow (Gen.W2 m ρ c (Proc.devRef .tc main_arg6)) := by
    show StableHlo.after hostOps1 (Gen.W2 m ρ c) (Proc.devRef .tc main_v38) = _
    after_results
    rfl
  rw [h, W2_arg6]

/-- The second layer's first weight matrix is as launched when the second region starts. -/
theorem V3_arg5 : Gen.V3 m ρ c main_arg5 = m ((c : Thread nD τ).loc main_arg5) := by
  show StableHlo.after hostOps1 (Gen.W2 m ρ c) (Proc.devRef .tc main_arg5) = _
  after_results
  exact W2_arg5 m ρ c

/-- The second layer's second weight matrix is as launched when the second region starts. -/
theorem V3_arg7 : Gen.V3 m ρ c main_arg7 = m ((c : Thread nD τ).loc main_arg7) := by
  show StableHlo.after hostOps1 (Gen.W2 m ρ c) (Proc.devRef .tc main_arg7) = _
  after_results
  exact W2_arg7 m ρ c

/-! ## The result -/

/-- The program's result array ends at what the second region's write-backs leave. -/
theorem result_eq : Gen.W4 m ρ c (Proc.devRef .tc main_v39) = out1 m ρ c := Gen.W4_arr m ρ c 6

end Cert.KernelIdeal.HostSide

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibKeepdims.lean ====
/-
  A reduction over the last axis that keeps its dimension: the vector of row results, length a, is viewed as a
  column [a, 1] and the column is then spread over b columns, [a, 1] to [a, b]. Read at (p, c) the result is the
  row result of row p, whatever the column c. Stated for any element type and any extents.
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`:
    the row-major position of `(i, u)` in a one-column array is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a length-`a` vector as a column spread over `b` columns reads, at `(p, c)`, entry `p`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Idealize.ShloMosaic.ValueIdx
-- ==== Proof.LibHostRead.lean ====
/-
  A jnp reference's host operations read at an index, on the extended reals, for any extents.

  The broadcasts a reduction with keepdims or a row / column operand prints: a vector kept as a one-column or one-row
  matrix, a one-column or one-row matrix spread over the other axis, the same with a trailing unit axis of a three-axis
  array; a literal splat to any shape; the host's sum over the last axis of a matrix or of a three-axis array from an
  initial value that is zero, as the plain sum over that axis's coordinates; the host's quotient, square root,
  reciprocal square root and logarithm entry by entry; and a reshape that splits the second axis of a matrix in two:
  entry (r, k, p) of the [a, c, d] array is entry (r, k · d + p) of the [a, c · d] matrix.
-/
import Idealize.ShloMosaic.Lib.ValueIdx
import Idealize.ShloMosaic.Lib.Pipeline.Value
import Idealize.ShloMosaic.PureOps.Ideal.Laws

noncomputable section

namespace Cert.LibHostRead

open Idealize.ShloMosaic Idealize.ShloMosaic.ValueIdx
open scoped BigOperators

/-! ## Host operations read at an index, for any extents -/

section Helpers
variable {α : Type}

/-- A splat of a literal, broadcast to any shape, is the literal's value at every index. -/
theorem bcastConst_apply {s t : Shape} (dims : Fin s.rank → Fin t.rank) (h : s.BroadcastsInDim t dims) (w : BitVec 32)
    (j : t.Idx) : broadcastInDim t dims h (constant (F := Ideal) s .f32 w) j = Ideal.ofBits .f32 w := rfl

/-- A vector kept as a one-column matrix reads, at `(r, z)`, entry `r`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ (![0] : Fin 1 → Fin 2) h x (ix2 r z) = x (ix1 r) := by
  refine broadcastInDim_apply _ h x (ix2 r z) (ix1 r) fun ax => ?_
  match ax with
  | ⟨0, _⟩ =>
    show r.val = if a = 1 then 0 else r.val
    split
    · have := r.isLt; omega
    · rfl

/-- A one-column matrix spread over `b` columns reads, at `(r, d)`, the column's entry of row `r`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 r (0 : Fin 1)) := by
  refine broadcastInDim_apply _ h x (ix2 r d) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else d.val
    rw [if_pos rfl]

/-- A vector kept as a one-row matrix reads, at `(z, d)`, entry `d`. -/
theorem bcast_b_1b_apply {b : ℕ} (x : (⟨1, ![b]⟩ : Shape).Idx → α)
    (h : (⟨1, ![b]⟩ : Shape).BroadcastsInDim ⟨2, ![1, b]⟩ (![1] : Fin 1 → Fin 2)) (z : Fin 1) (d : Fin b) :
    broadcastInDim ⟨2, ![1, b]⟩ (![1] : Fin 1 → Fin 2) h x (ix2 z d) = x (ix1 d) := by
  refine broadcastInDim_apply _ h x (ix2 z d) (ix1 d) fun ax => ?_
  match ax with
  | ⟨0, _⟩ =>
    show d.val = if b = 1 then 0 else d.val
    split
    · have := d.isLt; omega
    · rfl

/-- A one-row matrix spread over `a` rows reads, at `(r, d)`, the row's entry of column `d`. -/
theorem bcast_1b_ab_apply {a b : ℕ} (x : (⟨2, ![1, b]⟩ : Shape).Idx → α)
    (h : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 (0 : Fin 1) d) := by
  refine broadcastInDim_apply _ h x (ix2 r d) (ix2 (0 : Fin 1) d) fun ax => ?_
  match ax with
  | ⟨0, _⟩ =>
    show (0 : ℕ) = if (1 : ℕ) = 1 then 0 else r.val
    rw [if_pos rfl]
  | ⟨1, _⟩ =>
    show d.val = if b = 1 then 0 else d.val
    split
    · have := d.isLt; omega
    · rfl

/-- A vector spread over the rows of a matrix, through a one-row matrix: at `(r, d)`, entry `d`. -/
theorem bcastRow_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h2 (broadcastInDim ⟨2, ![1, b]⟩ (![1] : Fin 1 → Fin 2) h1 x) (ix2 r d)
      = x (ix1 d) :=
  (bcast_1b_ab_apply _ h2 r d).trans (bcast_b_1b_apply x h1 0 d)

/-- An `[a, b]` array kept as `[a, b, 1]` reads, at `(i, j, z)`, entry `(i, j)`. -/
theorem bcast_ab_ab1_apply {a b : ℕ} (x : (⟨2, ![a, b]⟩ : Shape).Idx → α)
    (h : (⟨2, ![a, b]⟩ : Shape).BroadcastsInDim ⟨3, ![a, b, 1]⟩ (![0, 1] : Fin 2 → Fin 3)) (i : Fin a) (j : Fin b) (z : Fin 1) :
    broadcastInDim ⟨3, ![a, b, 1]⟩ (![0, 1] : Fin 2 → Fin 3) h x (ix3 i j z) = x (ix2 i j) := by
  refine broadcastInDim_apply _ h x (ix3 i j z) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An `[a, b, 1]` array spread over `c` entries of the last axis reads, at `(i, j, k)`, entry `(i, j, 0)`. -/
theorem bcast_ab1_abc_apply {a b c : ℕ} (x : (⟨3, ![a, b, 1]⟩ : Shape).Idx → α)
    (h : (⟨3, ![a, b, 1]⟩ : Shape).BroadcastsInDim ⟨3, ![a, b, c]⟩ (![0, 1, 2] : Fin 3 → Fin 3)) (i : Fin a) (j : Fin b) (k : Fin c) :
    broadcastInDim ⟨3, ![a, b, c]⟩ (![0, 1, 2] : Fin 3 → Fin 3) h x (ix3 i j k) = x (ix3 i j (0 : Fin 1)) := by
  refine broadcastInDim_apply _ h x (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- The host's sum of each row of a matrix, from an initial value that is zero: at row `r`, the sum over the columns. -/
theorem hostSumAxis1_apply {a b : ℕ} (x : (⟨2, ![a, b]⟩ : Shape).Idx → EReal) {u : Shape} (init : u.Idx → EReal)
    (h' : (⟨2, ![a, b]⟩ : Shape).ReducesTo [1] ⟨1, ![a]⟩) (hu : 0 < u.numel)
    (hinit : init (Shape.Idx.first hu) = 0) (r : Fin a) :
    Host.reduceAdd (F := Ideal) (φ := .f32) x init h' hu (ix1 r) = ∑ d : Fin b, x (ix2 r d) := by
  have h : (⟨2, ![a, b]⟩ : Shape).Reduces [1] ⟨1, ![a]⟩ := ⟨h'.1, Nat.one_pos, h'.2⟩
  show Ideal.hostReduceAdd h' x (init (Shape.Idx.first hu)) (ix1 r) = _
  rw [hinit, Ideal.hostReduceAdd_single h' h x 0 (ix1 r), zero_add]
  exact Finset.sum_congr rfl fun k _ => congrArg x (funext fun ax => Fin.ext (match ax with | ⟨0, _⟩ => rfl | ⟨1, _⟩ => rfl))

/-- The host's sum over the last axis of a three-axis array, from zero: at `(i, j)`, the sum over `k` of the entries `(i, j, k)`. -/
theorem hostSumAxis2_apply {a b c : ℕ} (x : (⟨3, ![a, b, c]⟩ : Shape).Idx → EReal) {u : Shape} (init : u.Idx → EReal)
    (h' : (⟨3, ![a, b, c]⟩ : Shape).ReducesTo [2] ⟨2, ![a, b]⟩) (hu : 0 < u.numel)
    (hinit : init (Shape.Idx.first hu) = 0) (i : Fin a) (j : Fin b) :
    Host.reduceAdd (F := Ideal) (φ := .f32) x init h' hu (ix2 i j) = ∑ k : Fin c, x (ix3 i j k) := by
  have h : (⟨3, ![a, b, c]⟩ : Shape).Reduces [2] ⟨2, ![a, b]⟩ := ⟨h'.1, Nat.two_pos, h'.2⟩
  show Ideal.hostReduceAdd h' x (init (Shape.Idx.first hu)) (ix2 i j) = _
  rw [hinit, Ideal.hostReduceAdd_single h' h x 0 (ix2 i j), zero_add]
  refine Finset.sum_congr rfl fun k _ => congrArg x (funext fun ax => Fin.ext ?_)
  match ax with
  | ⟨0, _⟩ => rfl
  | ⟨1, _⟩ => rfl
  | ⟨2, _⟩ => rfl

end Helpers

/-! ## Pointwise host operations at the extended reals -/

theorem hostDivf_apply {s : Shape} (x y : FVec Ideal s .f32) (i : s.Idx) : Host.divf x y i = Ideal.div (x i) (y i) := rfl
theorem hostSqrt_apply {s : Shape} (x : FVec Ideal s .f32) (i : s.Idx) : Host.sqrt x i = Ideal.sqrt (x i) := rfl
theorem hostRsqrt_apply {s : Shape} (x : FVec Ideal s .f32) (i : s.Idx) : Host.rsqrt x i = Ideal.rsqrt (x i) := rfl
theorem hostLog_apply {s : Shape} (x : FVec Ideal s .f32) (i : s.Idx) : Host.log x i = Ideal.log (x i) := rfl

/-- A matrix whose second axis is split in two reads, at `(r, k, p)`, the matrix at `(r, k · d + p)`. -/
theorem shapeCast_ab_acd_apply {α : Type} {a b c d : ℕ} (X : (⟨2, ![a, b]⟩ : Shape).Idx → α)
    (h : (⟨2, ![a, b]⟩ : Shape).ShapeCasts ⟨3, ![a, c, d]⟩) (hb : b = c * d) (r : Fin a) (k : Fin c) (p : Fin d) (kp : Fin b)
    (hkp : kp.val = k.val * d + p.val) : shapeCast ⟨3, ![a, c, d]⟩ X h (ix3 r k p) = X (ix2 r kp) :=
  shapeCast_apply X h _ _ (by
    rw [Shape.rowMajor_val_two, Shape.rowMajor_val_three]
    show r.val * b + kp.val = (r.val * c + k.val) * d + p.val
    rw [hkp, hb]; ring)

end Cert.LibHostRead

end
-- ==== Proof.LibMeanLayer.lean ====
/-
  A graph layer that averages the neighbours' features, as a function of whole arrays, entry by entry, for any extents.
  For the summed neighbour features s and the node features x (n rows, k columns each), the neighbour counts as a
  column cnt (n rows, one column), two k×d weight matrices Wl, Wr and a bias as a row b (one row, d columns),
  entry (p, q) of the layer is
      ( Σ_c (s(p,c) / max(cnt(p), 1)) · Wl(c,q)  +  b(q) )  +  Σ_c x(p,c) · Wr(c,q),
  optionally followed by the rectifier max(·, 0). An entry reads row p of s, x and cnt only, so a block of rows
  computes the entries of the whole array. On the extended reals a change of float format is the identity, so the
  kernel's products of bf16-rounded operands are these sums; the host's spelling (the counts and the bias given as
  vectors and spread by broadcasts) is the same entry with the count vector read as a column and the bias as a row.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import Idealize.ShloMosaic.Lib.KernelVsHost
import proofs.«133622_j26018911879756_2_alg».proof.Proof.LibDot
import proofs.«133622_j26018911879756_2_alg».proof.Proof.LibKeepdims
import proofs.«133622_j26018911879756_2_alg».proof.Proof.LibHostRead

noncomputable section

namespace Cert.LibMeanLayer

open Idealize.ShloMosaic Idealize.ShloMosaic.ValueIdx
open scoped BigOperators

variable {n m k d : Nat}

/-- Entry (p, q) of the layer before the rectifier. The literal one is kept as the f32 word both programs print. -/
def entry (s x : FVec Ideal ⟨2, ![n, k]⟩ .f32) (cnt : FVec Ideal ⟨2, ![n, 1]⟩ .f32) (Wl Wr : FVec Ideal ⟨2, ![k, d]⟩ .f32)
    (b : FVec Ideal ⟨2, ![1, d]⟩ .f32) (p : Fin n) (q : Fin d) : Ideal .f32 :=
  ((∑ c : Fin k, Ideal.div (s (ix2 p c)) (max (cnt (ix2 p (0 : Fin 1))) (Ideal.ofBits .f32 0x3F800000#32)) * Wl (ix2 c q))
      + b (ix2 (0 : Fin 1) q))
    + ∑ c : Fin k, x (ix2 p c) * Wr (ix2 c q)

/-- The rectifier max(v, 0), or nothing. The zero is kept as the f32 word both programs print. -/
def act (relu : Bool) (v : Ideal .f32) : Ideal .f32 :=
  if relu then max v (Ideal.ofBits .f32 0x00000000#32) else v

/-- The layer as one whole-array function. -/
def layer (relu : Bool) (s x : FVec Ideal ⟨2, ![n, k]⟩ .f32) (cnt : FVec Ideal ⟨2, ![n, 1]⟩ .f32)
    (Wl Wr : FVec Ideal ⟨2, ![k, d]⟩ .f32) (b : FVec Ideal ⟨2, ![1, d]⟩ .f32) : FVec Ideal ⟨2, ![n, d]⟩ .f32 :=
  fun i => act relu (entry s x cnt Wl Wr b (i 0) (i 1))

theorem layer_apply (relu : Bool) (s x : FVec Ideal ⟨2, ![n, k]⟩ .f32) (cnt : FVec Ideal ⟨2, ![n, 1]⟩ .f32)
    (Wl Wr : FVec Ideal ⟨2, ![k, d]⟩ .f32) (b : FVec Ideal ⟨2, ![1, d]⟩ .f32) (p : Fin n) (q : Fin d) :
    layer relu s x cnt Wl Wr b (ix2 p q) = act relu (entry s x cnt Wl Wr b p q) := rfl

/-- An entry reads row p of the summed features, of the features and of the counts, column q of the weights and
    entry q of the bias: arrays that agree there give the same entry (a block of rows against the whole array). -/
theorem entry_congr (s x : FVec Ideal ⟨2, ![n, k]⟩ .f32) (cnt : FVec Ideal ⟨2, ![n, 1]⟩ .f32)
    (Wl Wr : FVec Ideal ⟨2, ![k, d]⟩ .f32) (b : FVec Ideal ⟨2, ![1, d]⟩ .f32)
    (s' x' : FVec Ideal ⟨2, ![m, k]⟩ .f32) (cnt' : FVec Ideal ⟨2, ![m, 1]⟩ .f32)
    (Wl' Wr' : FVec Ideal ⟨2, ![k, d]⟩ .f32) (b' : FVec Ideal ⟨2, ![1, d]⟩ .f32) (p : Fin n) (p' : Fin m) (q : Fin d)
    (es : ∀ c : Fin k, s' (ix2 p' c) = s (ix2 p c)) (ex : ∀ c : Fin k, x' (ix2 p' c) = x (ix2 p c))
    (ec : cnt' (ix2 p' (0 : Fin 1)) = cnt (ix2 p (0 : Fin 1)))
    (el : ∀ c : Fin k, Wl' (ix2 c q) = Wl (ix2 c q)) (er : ∀ c : Fin k, Wr' (ix2 c q) = Wr (ix2 c q))
    (eb : b' (ix2 (0 : Fin 1) q) = b (ix2 (0 : Fin 1) q)) :
    entry s' x' cnt' Wl' Wr' b' p' q = entry s x cnt Wl Wr b p q := by
  unfold entry
  rw [eb, ec]
  congr 1
  · congr 1
    exact Finset.sum_congr rfl fun c _ => by rw [es c, el c]
  · exact Finset.sum_congr rfl fun c _ => by rw [ex c, er c]

/-- The kernel's body before the rectifier, at (p, q): the block of summed features divided by the counts (at
    least one) spread along the rows, times the left weights, plus the bias row spread over the rows, plus the
    features' block times the right weights: the layer's entry. -/
theorem body_apply (w : DotDims.WF ⟨2, ![m, k]⟩ ⟨2, ![k, d]⟩ ⟨2, ![m, d]⟩ [1] [0] [0] [1] [] [])
    (hc : (⟨2, ![m, 1]⟩ : Shape).Broadcasts ⟨2, ![m, k]⟩) (hb : (⟨2, ![1, d]⟩ : Shape).Broadcasts ⟨2, ![m, d]⟩)
    (hx : FTy.bf16.bits < FTy.f32.bits)
    (v0 : FVec Ideal ⟨2, ![m, 1]⟩ .f32) (v2 v9 : FVec Ideal ⟨2, ![m, k]⟩ .f32) (v11 v13 : FVec Ideal ⟨2, ![k, d]⟩ .f32)
    (v16 : FVec Ideal ⟨2, ![1, d]⟩ .f32) (p : Fin m) (q : Fin d) :
    addf (addf (matmul (LibDot.dims w) none
                  (truncf .bf16 (divf v2 (broadcastTo ⟨2, ![m, k]⟩ (maximumf v0 (broadcast ⟨2, ![m, 1]⟩ (Scalar.ofBits .f32 0x3F800000#32))) hc)) hx)
                  (truncf .bf16 v11 hx) (constant ⟨2, ![m, d]⟩ .f32 0x00000000#32))
               (broadcastTo ⟨2, ![m, d]⟩ v16 hb))
         (matmul (LibDot.dims w) none (truncf .bf16 v9 hx) (truncf .bf16 v13 hx) (constant ⟨2, ![m, d]⟩ .f32 0x00000000#32)) (ix2 p q)
      = entry v2 v9 v0 v11 v13 v16 p q := by
  rw [addf_apply, addf_apply, LibDot.matmul_zero_apply, LibDot.matmul_zero_apply, broadcastTo_1b_ab_apply]
  unfold entry
  congr 1
  congr 1
  refine Finset.sum_congr rfl fun c _ => ?_
  rw [truncf_apply, truncf_apply, divf_apply, broadcastTo_a1_ab_apply, maximumf_apply]
  rfl

/-- The host's spelling of the same entry: the count vector floored at one, kept as a column and spread over the
    columns; the quotient times the left weights; the bias vector as a row spread over the rows; the features times
    the right weights. The count vector is read as a column and the bias vector as a row. -/
theorem host_apply (w : DotDims.WF ⟨2, ![n, k]⟩ ⟨2, ![k, d]⟩ ⟨2, ![n, d]⟩ [1] [0] [0] [1] [] [])
    (h1 : (⟨0, ![]⟩ : Shape).BroadcastsInDim ⟨1, ![n]⟩ ![])
    (hc1 : (⟨1, ![n]⟩ : Shape).BroadcastsInDim ⟨2, ![n, 1]⟩ (![0] : Fin 1 → Fin 2))
    (hc2 : (⟨2, ![n, 1]⟩ : Shape).BroadcastsInDim ⟨2, ![n, k]⟩ (![0, 1] : Fin 2 → Fin 2))
    (hb1 : (⟨1, ![d]⟩ : Shape).BroadcastsInDim ⟨2, ![1, d]⟩ (![1] : Fin 1 → Fin 2))
    (hb2 : (⟨2, ![1, d]⟩ : Shape).BroadcastsInDim ⟨2, ![n, d]⟩ (![0, 1] : Fin 2 → Fin 2))
    (hcol : (⟨1, ![n]⟩ : Shape).ShapeCasts ⟨2, ![n, 1]⟩) (hrow : (⟨1, ![d]⟩ : Shape).ShapeCasts ⟨2, ![1, d]⟩)
    (s x : FVec Ideal ⟨2, ![n, k]⟩ .f32) (cnt : FVec Ideal ⟨1, ![n]⟩ .f32) (Wl Wr : FVec Ideal ⟨2, ![k, d]⟩ .f32)
    (b : FVec Ideal ⟨1, ![d]⟩ .f32) (p : Fin n) (q : Fin d) :
    addf (addf (Host.dotGeneral (LibDot.dims w) none
                  (Host.divf s (broadcastInDim ⟨2, ![n, k]⟩ ![0, 1] hc2 (broadcastInDim ⟨2, ![n, 1]⟩ ![0] hc1
                    (maximumf cnt (broadcastInDim ⟨1, ![n]⟩ ![] h1 (constant (F := Ideal) ⟨0, ![]⟩ .f32 0x3F800000#32))))))
                  Wl)
               (broadcastInDim ⟨2, ![n, d]⟩ ![0, 1] hb2 (broadcastInDim ⟨2, ![1, d]⟩ ![1] hb1 b)))
         (Host.dotGeneral (LibDot.dims w) none x Wr) (ix2 p q)
      = entry s x (shapeCast ⟨2, ![n, 1]⟩ cnt hcol) Wl Wr (shapeCast ⟨2, ![1, d]⟩ b hrow) p q := by
  rw [addf_apply, addf_apply, LibDot.dotGeneral_apply, LibDot.dotGeneral_apply, LibHostRead.bcastRow_apply]
  unfold entry
  rw [shapeCast_a_1a_apply, shapeCast_a_a1_apply]
  congr 1
  congr 1
  refine Finset.sum_congr rfl fun c _ => ?_
  rw [LibHostRead.hostDivf_apply, LibHostRead.bcast_a1_ab_apply, LibHostRead.bcast_a_a1_apply, maximumf_apply]
  rfl

/-- The host's layer without a rectifier, as a whole array. -/
theorem host_layer_plain (w : DotDims.WF ⟨2, ![n, k]⟩ ⟨2, ![k, d]⟩ ⟨2, ![n, d]⟩ [1] [0] [0] [1] [] [])
    (h1 : (⟨0, ![]⟩ : Shape).BroadcastsInDim ⟨1, ![n]⟩ ![])
    (hc1 : (⟨1, ![n]⟩ : Shape).BroadcastsInDim ⟨2, ![n, 1]⟩ (![0] : Fin 1 → Fin 2))
    (hc2 : (⟨2, ![n, 1]⟩ : Shape).BroadcastsInDim ⟨2, ![n, k]⟩ (![0, 1] : Fin 2 → Fin 2))
    (hb1 : (⟨1, ![d]⟩ : Shape).BroadcastsInDim ⟨2, ![1, d]⟩ (![1] : Fin 1 → Fin 2))
    (hb2 : (⟨2, ![1, d]⟩ : Shape).BroadcastsInDim ⟨2, ![n, d]⟩ (![0, 1] : Fin 2 → Fin 2))
    (hcol : (⟨1, ![n]⟩ : Shape).ShapeCasts ⟨2, ![n, 1]⟩) (hrow : (⟨1, ![d]⟩ : Shape).ShapeCasts ⟨2, ![1, d]⟩)
    (s x : FVec Ideal ⟨2, ![n, k]⟩ .f32) (cnt : FVec Ideal ⟨1, ![n]⟩ .f32) (Wl Wr : FVec Ideal ⟨2, ![k, d]⟩ .f32)
    (b : FVec Ideal ⟨1, ![d]⟩ .f32) :
    addf (addf (Host.dotGeneral (LibDot.dims w) none
                  (Host.divf s (broadcastInDim ⟨2, ![n, k]⟩ ![0, 1] hc2 (broadcastInDim ⟨2, ![n, 1]⟩ ![0] hc1
                    (maximumf cnt (broadcastInDim ⟨1, ![n]⟩ ![] h1 (constant (F := Ideal) ⟨0, ![]⟩ .f32 0x3F800000#32))))))
                  Wl)
               (broadcastInDim ⟨2, ![n, d]⟩ ![0, 1] hb2 (broadcastInDim ⟨2, ![1, d]⟩ ![1] hb1 b)))
         (Host.dotGeneral (LibDot.dims w) none x Wr)
      = layer false s x (shapeCast ⟨2, ![n, 1]⟩ cnt hcol) Wl Wr (shapeCast ⟨2, ![1, d]⟩ b hrow) := by
  funext i
  obtain ⟨p, q, rfl⟩ : ∃ (p : Fin n) (q : Fin d), i = ix2 p q := ⟨i 0, i 1, eq_ix2 i⟩
  rw [host_apply w h1 hc1 hc2 hb1 hb2 hcol hrow, layer_apply]; rfl

/-- The host's layer with the rectifier (a maximum with a splat of the zero word), as a whole array. -/
theorem host_layer_relu (w : DotDims.WF ⟨2, ![n, k]⟩ ⟨2, ![k, d]⟩ ⟨2, ![n, d]⟩ [1] [0] [0] [1] [] [])
    (h1 : (⟨0, ![]⟩ : Shape).BroadcastsInDim ⟨1, ![n]⟩ ![])
    (hc1 : (⟨1, ![n]⟩ : Shape).BroadcastsInDim ⟨2, ![n, 1]⟩ (![0] : Fin 1 → Fin 2))
    (hc2 : (⟨2, ![n, 1]⟩ : Shape).BroadcastsInDim ⟨2, ![n, k]⟩ (![0, 1] : Fin 2 → Fin 2))
    (hb1 : (⟨1, ![d]⟩ : Shape).BroadcastsInDim ⟨2, ![1, d]⟩ (![1] : Fin 1 → Fin 2))
    (hb2 : (⟨2, ![1, d]⟩ : Shape).BroadcastsInDim ⟨2, ![n, d]⟩ (![0, 1] : Fin 2 → Fin 2))
    (hz : (⟨0, ![]⟩ : Shape).BroadcastsInDim ⟨2, ![n, d]⟩ ![])
    (hcol : (⟨1, ![n]⟩ : Shape).ShapeCasts ⟨2, ![n, 1]⟩) (hrow : (⟨1, ![d]⟩ : Shape).ShapeCasts ⟨2, ![1, d]⟩)
    (s x : FVec Ideal ⟨2, ![n, k]⟩ .f32) (cnt : FVec Ideal ⟨1, ![n]⟩ .f32) (Wl Wr : FVec Ideal ⟨2, ![k, d]⟩ .f32)
    (b : FVec Ideal ⟨1, ![d]⟩ .f32) :
    maximumf (addf (addf (Host.dotGeneral (LibDot.dims w) none
                  (Host.divf s (broadcastInDim ⟨2, ![n, k]⟩ ![0, 1] hc2 (broadcastInDim ⟨2, ![n, 1]⟩ ![0] hc1
                    (maximumf cnt (broadcastInDim ⟨1, ![n]⟩ ![] h1 (constant (F := Ideal) ⟨0, ![]⟩ .f32 0x3F800000#32))))))
                  Wl)
               (broadcastInDim ⟨2, ![n, d]⟩ ![0, 1] hb2 (broadcastInDim ⟨2, ![1, d]⟩ ![1] hb1 b)))
         (Host.dotGeneral (LibDot.dims w) none x Wr))
       (broadcastInDim ⟨2, ![n, d]⟩ ![] hz (constant (F := Ideal) ⟨0, ![]⟩ .f32 0x00000000#32))
      = layer true s x (shapeCast ⟨2, ![n, 1]⟩ cnt hcol) Wl Wr (shapeCast ⟨2, ![1, d]⟩ b hrow) := by
  funext i
  obtain ⟨p, q, rfl⟩ : ∃ (p : Fin n) (q : Fin d), i = ix2 p q := ⟨i 0, i 1, eq_ix2 i⟩
  rw [maximumf_apply, host_apply w h1 hc1 hc2 hb1 hb2 hcol hrow, layer_apply, broadcastInDim_scalar_apply]; rfl

end Cert.LibMeanLayer

end
-- ==== Proof.KernelLayer0.lean ====
/-
  Region 0 of the kernel program (the first layer, with the rectifier), for ANY contents V of the buffers when the
  region starts. Its grid has 10 points; point t stages rows 10000·t … 10000·t + 9999 of the summed neighbour
  features, of the count column and of the node features, and the two weight matrices and the bias row whole, and
  writes back the same rows of the result. The body's stored block at (p, q) is the layer's entry of the staged
  blocks; an entry reads row p only, and row p of block t is row 10000·t + p of the array, so what point t writes
  back is block t of ONE whole-array function, the layer of the arrays as the region finds them. The ten blocks tile
  the result array, so after the region it holds that layer.
-/
import proofs.«133622_j26018911879756_2_alg».proof.Proof.Gen.KernelIdeal.Frame
import proofs.«133622_j26018911879756_2_alg».proof.Proof.LibMeanLayer
import Idealize.ShloMosaic.Lib.Pipeline.Value

set_option maxRecDepth 16384

noncomputable section

namespace Cert.KernelIdeal.Layer0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibMeanLayer

variable (V : (c : Dev nD) → (b : Ref sig .tc) → Buf (Elt Ideal) ((c : Thread nD τ).loc b))

theorem origin : (![0, 0] : Fin 2 → Nat) = fun _ => 0 := funext fun a => by fin_cases a <;> rfl

/-- The body's stored value at (p, q): the rectified entry of the loaded blocks. -/
theorem stored_apply (v0 : Vec Ideal S10000x1 .f32) (v2 v9 : Vec Ideal S10000x64 .f32) (v11 v13 : Vec Ideal S64x64 .f32)
    (v16 : Vec Ideal S1x64 .f32) (p : Fin 10000) (q : Fin 64) :
    k0_pay1 (F := Ideal) v0 v2 v9 v11 v13 v16 (ix2 p q) = act true (entry v2 v9 v0 v11 v13 v16 p q) := by
  unfold k0_pay1
  simp only [shapeCast_self]
  rw [maximumf_apply]
  exact congrArg (fun z => max z (Ideal.ofBits .f32 0x00000000#32))
    (body_apply dot_S10000x64_S64x64_S10000x64_1_0_0_1_n_n_wf broadcasts_S10000x1_S10000x64 broadcasts_S1x64_S10000x64
      bitsLt_bf16_f32 v0 v2 v9 v11 v13 v16 p q)

/-- The printed index maps over the grid: the three row-blocked inputs and the output sit at block (t, 0), the
    weights and the bias at block (0, 0). -/
theorem index_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of block t is row 10000·t + p of the array. -/
abbrev rowOf (t : Fin cfg0.N) (p : Fin 10000) : Fin 100000 :=
  ⟨t.val * 10000 + p.val, by have ht : t.val < 10 := N_0 ▸ t.isLt; have hp := p.isLt; omega⟩

/-- WHAT POINT t WRITES BACK is block t of the layer of the arrays as the region finds them. -/
theorem flushed_eq (c : Dev nD) (t : Fin cfg0.N) :
    (dat0 V c).flushed 6 t = ((cfg0.win 6).blk t).view.read (Elt Ideal)
      (layer (n := 100000) (k := 64) (d := 64) true (V c main_v13) (V c main_arg0) (V c main_v19) (V c main_arg2) (V c main_arg4) (V c main_v20)) := by
  show (cfg0.win 6).cut (grid0.coords t) ((dat0 V c).after 6 t) = _
  rw [after0_6]
  unfold out0_6
  rw [View.canon_unit_zero origin]
  simp only [View.ld_unit_zero (S := S10000x64) origin, View.ld_unit_zero (S := S10000x1) origin,
    View.ld_unit_zero (S := S64x64) origin, View.ld_unit_zero (S := S1x64) origin]
  obtain ⟨e00, e01, e10, e11, e20, e21, e30, e31, e40, e41, e50, e51, e60, e61⟩ := index_facts t
  funext j
  obtain ⟨p, q, rfl⟩ : ∃ (p : Fin 10000) (q : Fin 64), j = ix2 p q := ⟨j 0, j 1, eq_ix2 j⟩
  have hp := p.isLt
  have hq := q.isLt
  have hemb : ((cfg0.win 6).blk t).view.emb (ix2 p q) = ix2 (rowOf t p) q := by
    funext a; apply Fin.ext
    match a with
    | ⟨0, _⟩ => show win0_6.index t (0 : Fin 2) * 10000 + 1 * p.val = t.val * 10000 + p.val; omega
    | ⟨1, _⟩ => show win0_6.index t (1 : Fin 2) * 64 + 1 * q.val = q.val; omega
  show k0_pay1 (F := Ideal) (iblk0 V c 1 t) (iblk0 V c 0 t) (iblk0 V c 2 t) (iblk0 V c 3 t) (iblk0 V c 5 t) (iblk0 V c 4 t) (ix2 p q)
    = layer (n := 100000) (k := 64) (d := 64) true (V c main_v13) (V c main_arg0) (V c main_v19) (V c main_arg2) (V c main_arg4) (V c main_v20)
        (((cfg0.win 6).blk t).view.emb (ix2 p q))
  refine (stored_apply (iblk0 V c 1 t) (iblk0 V c 0 t) (iblk0 V c 2 t) (iblk0 V c 3 t) (iblk0 V c 5 t) (iblk0 V c 4 t) p q).trans ?_
  refine Eq.trans ?_ (congrArg (layer (n := 100000) (k := 64) (d := 64) true (V c main_v13) (V c main_arg0) (V c main_v19) (V c main_arg2) (V c main_arg4) (V c main_v20)) hemb).symm
  refine congrArg (act true) (entry_congr (V c main_v13) (V c main_arg0) (V c main_v19) (V c main_arg2) (V c main_arg4) (V c main_v20)
    (iblk0 V c 0 t) (iblk0 V c 2 t) (iblk0 V c 1 t) (iblk0 V c 3 t) (iblk0 V c 5 t) (iblk0 V c 4 t) (rowOf t p) p q ?_ ?_ ?_ ?_ ?_ ?_)
  · intro c'
    have hc' := c'.isLt
    show V c main_v13 (((cfg0.win 0).blk t).view.emb (ix2 p c')) = V c main_v13 (ix2 (rowOf t p) c')
    refine congrArg (V c main_v13) ?_
    funext a; apply Fin.ext
    match a with
    | ⟨0, _⟩ => show win0_0.index t (0 : Fin 2) * 10000 + 1 * p.val = t.val * 10000 + p.val; omega
    | ⟨1, _⟩ => show win0_0.index t (1 : Fin 2) * 64 + 1 * c'.val = c'.val; omega
  · intro c'
    have hc' := c'.isLt
    show V c main_arg0 (((cfg0.win 2).blk t).view.emb (ix2 p c')) = V c main_arg0 (ix2 (rowOf t p) c')
    refine congrArg (V c main_arg0) ?_
    funext a; apply Fin.ext
    match a with
    | ⟨0, _⟩ => show win0_2.index t (0 : Fin 2) * 10000 + 1 * p.val = t.val * 10000 + p.val; omega
    | ⟨1, _⟩ => show win0_2.index t (1 : Fin 2) * 64 + 1 * c'.val = c'.val; omega
  · show V c main_v19 (((cfg0.win 1).blk t).view.emb (ix2 p (0 : Fin 1))) = V c main_v19 (ix2 (rowOf t p) (0 : Fin 1))
    refine congrArg (V c main_v19) ?_
    funext a; apply Fin.ext
    match a with
    | ⟨0, _⟩ => show win0_1.index t (0 : Fin 2) * 10000 + 1 * p.val = t.val * 10000 + p.val; omega
    | ⟨1, _⟩ => show win0_1.index t (1 : Fin 2) * 1 + 1 * 0 = 0; omega
  · intro c'
    have hc' := c'.isLt
    show V c main_arg2 (((cfg0.win 3).blk t).view.emb (ix2 c' q)) = V c main_arg2 (ix2 c' q)
    refine congrArg (V c main_arg2) ?_
    funext a; apply Fin.ext
    match a with
    | ⟨0, _⟩ => show win0_3.index t (0 : Fin 2) * 64 + 1 * c'.val = c'.val; omega
    | ⟨1, _⟩ => show win0_3.index t (1 : Fin 2) * 64 + 1 * q.val = q.val; omega
  · intro c'
    have hc' := c'.isLt
    show V c main_arg4 (((cfg0.win 5).blk t).view.emb (ix2 c' q)) = V c main_arg4 (ix2 c' q)
    refine congrArg (V c main_arg4) ?_
    funext a; apply Fin.ext
    match a with
    | ⟨0, _⟩ => show win0_5.index t (0 : Fin 2) * 64 + 1 * c'.val = c'.val; omega
    | ⟨1, _⟩ => show win0_5.index t (1 : Fin 2) * 64 + 1 * q.val = q.val; omega
  · show V c main_v20 (((cfg0.win 4).blk t).view.emb (ix2 (0 : Fin 1) q)) = V c main_v20 (ix2 (0 : Fin 1) q)
    refine congrArg (V c main_v20) ?_
    funext a; apply Fin.ext
    match a with
    | ⟨0, _⟩ => show win0_4.index t (0 : Fin 2) * 1 + 1 * 0 = 0; omega
    | ⟨1, _⟩ => show win0_4.index t (1 : Fin 2) * 64 + 1 * q.val = q.val; omega

/-- An index of the result array is in point t's block iff each coordinate is in the block's range on its axis. -/
theorem mem_blk (t : Fin cfg0.N) (i : S100000x64.Idx) :
    i ∈ ((cfg0.win 6).blk t).view.set ↔ ∀ a : Fin 2, win0_6.index t a * S10000x64.size a ≤ (i a).val
      ∧ (i a).val < win0_6.index t a * S10000x64.size a + S10000x64.size a := by
  show i ∈ ((View.whole main_v21).slice (win0_6.rect t)).set ↔ _
  rw [View.set_slice_whole, Rect.mem_set_unit]
  exact Iff.rfl

/-- The ten row blocks tile the result array: row r is in the block of point r / 10000. -/
theorem cover (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : grid0.N = 10 := N_0
  obtain ⟨t, ht⟩ : ∃ t : Fin cfg0.N, t.val = (i 0).val / 10000 := ⟨⟨(i 0).val / 10000, by show _ < grid0.N; omega⟩, rfl⟩
  obtain ⟨-, -, -, -, -, -, -, -, -, -, -, -, e60, e61⟩ := index_facts t
  refine ⟨t, flush0_6 t, ?_⟩
  rw [mem_blk]
  intro a
  match a with
  | ⟨0, _⟩ =>
    show win0_6.index t (0 : Fin 2) * 10000 ≤ (i 0).val ∧ (i 0).val < win0_6.index t (0 : Fin 2) * 10000 + 10000
    omega
  | ⟨1, _⟩ =>
    show win0_6.index t (1 : Fin 2) * 64 ≤ (i 1).val ∧ (i 1).val < win0_6.index t (1 : Fin 2) * 64 + 64
    omega

/-- THE RESULT ARRAY after region 0: the rectified layer of the arrays as the region finds them. -/
theorem final (c : Dev nD) : (dat0 V c).arrAt 6 cfg0.N
    = layer (n := 100000) (k := 64) (d := 64) true (V c main_v13) (V c main_arg0) (V c main_v19) (V c main_arg2) (V c main_arg4) (V c main_v20) :=
  (dat0 V c).arrAt_eq_of_cover 6 _ (fun t _ => flushed_eq V c t) cover

end Cert.KernelIdeal.Layer0

end
-- ==== Proof.KernelLayer1.lean ====
/-
  Region 1 of the kernel program (the second layer, no rectifier), for ANY contents V of the buffers when the
  region starts. As in the first region the grid has 10 points; point t stages rows 10000·t … 10000·t + 9999 of the
  summed neighbour features, of the count column and of the first layer's output, and the two weight matrices and
  the bias row whole, and writes back the same rows of the result. The body's stored block at (p, q) is the layer's
  entry of the staged blocks, which reads row p only; row p of block t is row 10000·t + p of the array, so what point
  t writes back is block t of ONE whole-array function, the layer of the arrays as the region finds them, and the ten
  blocks tile the result array.
-/
import proofs.«133622_j26018911879756_2_alg».proof.Proof.Gen.KernelIdeal.Frame
import proofs.«133622_j26018911879756_2_alg».proof.Proof.LibMeanLayer
import Idealize.ShloMosaic.Lib.Pipeline.Value

set_option maxRecDepth 16384

noncomputable section

namespace Cert.KernelIdeal.Layer1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibMeanLayer

variable (V : (c : Dev nD) → (b : Ref sig .tc) → Buf (Elt Ideal) ((c : Thread nD τ).loc b))

theorem origin : (![0, 0] : Fin 2 → Nat) = fun _ => 0 := funext fun a => by fin_cases a <;> rfl

/-- The body's stored value at (p, q): the entry of the loaded blocks. -/
theorem stored_apply (v0 : Vec Ideal S10000x1 .f32) (v2 v9 : Vec Ideal S10000x64 .f32) (v11 v13 : Vec Ideal S64x64 .f32)
    (v16 : Vec Ideal S1x64 .f32) (p : Fin 10000) (q : Fin 64) :
    k1_pay1 (F := Ideal) v0 v2 v9 v11 v13 v16 (ix2 p q) = act false (entry v2 v9 v0 v11 v13 v16 p q) := by
  unfold k1_pay1
  simp only [shapeCast_self]
  exact body_apply dot_S10000x64_S64x64_S10000x64_1_0_0_1_n_n_wf broadcasts_S10000x1_S10000x64 broadcasts_S1x64_S10000x64
      bitsLt_bf16_f32 v0 v2 v9 v11 v13 v16 p q

/-- The printed index maps over the grid: the three row-blocked inputs and the output sit at block (t, 0), the
    weights and the bias at block (0, 0). -/
theorem index_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of block t is row 10000·t + p of the array. -/
abbrev rowOf (t : Fin cfg1.N) (p : Fin 10000) : Fin 100000 :=
  ⟨t.val * 10000 + p.val, by have ht : t.val < 10 := N_1 ▸ t.isLt; have hp := p.isLt; omega⟩

/-- WHAT POINT t WRITES BACK is block t of the layer of the arrays as the region finds them. -/
theorem flushed_eq (c : Dev nD) (t : Fin cfg1.N) :
    (dat1 V c).flushed 6 t = ((cfg1.win 6).blk t).view.read (Elt Ideal)
      (layer (n := 100000) (k := 64) (d := 64) false (V c main_v31) (V c main_v21) (V c main_v37) (V c main_arg5) (V c main_arg7) (V c main_v38)) := by
  show (cfg1.win 6).cut (grid1.coords t) ((dat1 V c).after 6 t) = _
  rw [after1_6]
  unfold out1_6
  rw [View.canon_unit_zero origin]
  simp only [View.ld_unit_zero (S := S10000x64) origin, View.ld_unit_zero (S := S10000x1) origin,
    View.ld_unit_zero (S := S64x64) origin, View.ld_unit_zero (S := S1x64) origin]
  obtain ⟨e00, e01, e10, e11, e20, e21, e30, e31, e40, e41, e50, e51, e60, e61⟩ := index_facts t
  funext j
  obtain ⟨p, q, rfl⟩ : ∃ (p : Fin 10000) (q : Fin 64), j = ix2 p q := ⟨j 0, j 1, eq_ix2 j⟩
  have hp := p.isLt
  have hq := q.isLt
  have hemb : ((cfg1.win 6).blk t).view.emb (ix2 p q) = ix2 (rowOf t p) q := by
    funext a; apply Fin.ext
    match a with
    | ⟨0, _⟩ => show win1_6.index t (0 : Fin 2) * 10000 + 1 * p.val = t.val * 10000 + p.val; omega
    | ⟨1, _⟩ => show win1_6.index t (1 : Fin 2) * 64 + 1 * q.val = q.val; omega
  show k1_pay1 (F := Ideal) (iblk1 V c 1 t) (iblk1 V c 0 t) (iblk1 V c 2 t) (iblk1 V c 3 t) (iblk1 V c 5 t) (iblk1 V c 4 t) (ix2 p q)
    = layer (n := 100000) (k := 64) (d := 64) false (V c main_v31) (V c main_v21) (V c main_v37) (V c main_arg5) (V c main_arg7) (V c main_v38)
        (((cfg1.win 6).blk t).view.emb (ix2 p q))
  refine (stored_apply (iblk1 V c 1 t) (iblk1 V c 0 t) (iblk1 V c 2 t) (iblk1 V c 3 t) (iblk1 V c 5 t) (iblk1 V c 4 t) p q).trans ?_
  refine Eq.trans ?_ (congrArg (layer (n := 100000) (k := 64) (d := 64) false (V c main_v31) (V c main_v21) (V c main_v37) (V c main_arg5) (V c main_arg7) (V c main_v38)) hemb).symm
  refine congrArg (act false) (entry_congr (V c main_v31) (V c main_v21) (V c main_v37) (V c main_arg5) (V c main_arg7) (V c main_v38)
    (iblk1 V c 0 t) (iblk1 V c 2 t) (iblk1 V c 1 t) (iblk1 V c 3 t) (iblk1 V c 5 t) (iblk1 V c 4 t) (rowOf t p) p q ?_ ?_ ?_ ?_ ?_ ?_)
  · intro c'
    have hc' := c'.isLt
    show V c main_v31 (((cfg1.win 0).blk t).view.emb (ix2 p c')) = V c main_v31 (ix2 (rowOf t p) c')
    refine congrArg (V c main_v31) ?_
    funext a; apply Fin.ext
    match a with
    | ⟨0, _⟩ => show win1_0.index t (0 : Fin 2) * 10000 + 1 * p.val = t.val * 10000 + p.val; omega
    | ⟨1, _⟩ => show win1_0.index t (1 : Fin 2) * 64 + 1 * c'.val = c'.val; omega
  · intro c'
    have hc' := c'.isLt
    show V c main_v21 (((cfg1.win 2).blk t).view.emb (ix2 p c')) = V c main_v21 (ix2 (rowOf t p) c')
    refine congrArg (V c main_v21) ?_
    funext a; apply Fin.ext
    match a with
    | ⟨0, _⟩ => show win1_2.index t (0 : Fin 2) * 10000 + 1 * p.val = t.val * 10000 + p.val; omega
    | ⟨1, _⟩ => show win1_2.index t (1 : Fin 2) * 64 + 1 * c'.val = c'.val; omega
  · show V c main_v37 (((cfg1.win 1).blk t).view.emb (ix2 p (0 : Fin 1))) = V c main_v37 (ix2 (rowOf t p) (0 : Fin 1))
    refine congrArg (V c main_v37) ?_
    funext a; apply Fin.ext
    match a with
    | ⟨0, _⟩ => show win1_1.index t (0 : Fin 2) * 10000 + 1 * p.val = t.val * 10000 + p.val; omega
    | ⟨1, _⟩ => show win1_1.index t (1 : Fin 2) * 1 + 1 * 0 = 0; omega
  · intro c'
    have hc' := c'.isLt
    show V c main_arg5 (((cfg1.win 3).blk t).view.emb (ix2 c' q)) = V c main_arg5 (ix2 c' q)
    refine congrArg (V c main_arg5) ?_
    funext a; apply Fin.ext
    match a with
    | ⟨0, _⟩ => show win1_3.index t (0 : Fin 2) * 64 + 1 * c'.val = c'.val; omega
    | ⟨1, _⟩ => show win1_3.index t (1 : Fin 2) * 64 + 1 * q.val = q.val; omega
  · intro c'
    have hc' := c'.isLt
    show V c main_arg7 (((cfg1.win 5).blk t).view.emb (ix2 c' q)) = V c main_arg7 (ix2 c' q)
    refine congrArg (V c main_arg7) ?_
    funext a; apply Fin.ext
    match a with
    | ⟨0, _⟩ => show win1_5.index t (0 : Fin 2) * 64 + 1 * c'.val = c'.val; omega
    | ⟨1, _⟩ => show win1_5.index t (1 : Fin 2) * 64 + 1 * q.val = q.val; omega
  · show V c main_v38 (((cfg1.win 4).blk t).view.emb (ix2 (0 : Fin 1) q)) = V c main_v38 (ix2 (0 : Fin 1) q)
    refine congrArg (V c main_v38) ?_
    funext a; apply Fin.ext
    match a with
    | ⟨0, _⟩ => show win1_4.index t (0 : Fin 2) * 1 + 1 * 0 = 0; omega
    | ⟨1, _⟩ => show win1_4.index t (1 : Fin 2) * 64 + 1 * q.val = q.val; omega

/-- An index of the result array is in point t's block iff each coordinate is in the block's range on its axis. -/
theorem mem_blk (t : Fin cfg1.N) (i : S100000x64.Idx) :
    i ∈ ((cfg1.win 6).blk t).view.set ↔ ∀ a : Fin 2, win1_6.index t a * S10000x64.size a ≤ (i a).val
      ∧ (i a).val < win1_6.index t a * S10000x64.size a + S10000x64.size a := by
  show i ∈ ((View.whole main_v39).slice (win1_6.rect t)).set ↔ _
  rw [View.set_slice_whole, Rect.mem_set_unit]
  exact Iff.rfl

/-- The ten row blocks tile the result array: row r is in the block of point r / 10000. -/
theorem cover (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : grid1.N = 10 := N_1
  obtain ⟨t, ht⟩ : ∃ t : Fin cfg1.N, t.val = (i 0).val / 10000 := ⟨⟨(i 0).val / 10000, by show _ < grid1.N; omega⟩, rfl⟩
  obtain ⟨-, -, -, -, -, -, -, -, -, -, -, -, e60, e61⟩ := index_facts t
  refine ⟨t, flush1_6 t, ?_⟩
  rw [mem_blk]
  intro a
  match a with
  | ⟨0, _⟩ =>
    show win1_6.index t (0 : Fin 2) * 10000 ≤ (i 0).val ∧ (i 0).val < win1_6.index t (0 : Fin 2) * 10000 + 10000
    omega
  | ⟨1, _⟩ =>
    show win1_6.index t (1 : Fin 2) * 64 ≤ (i 1).val ∧ (i 1).val < win1_6.index t (1 : Fin 2) * 64 + 64
    omega

/-- THE RESULT ARRAY after region 1: the layer of the arrays as the region finds them. -/
theorem final (c : Dev nD) : (dat1 V c).arrAt 6 cfg1.N
    = layer (n := 100000) (k := 64) (d := 64) false (V c main_v31) (V c main_v21) (V c main_v37) (V c main_arg5) (V c main_arg7) (V c main_v38) :=
  (dat1 V c).arrAt_eq_of_cover 6 _ (fun t _ => flushed_eq V c t) cover

end Cert.KernelIdeal.Layer1

end
-- ==== Proof.RefValue.lean ====
/-
  The reference program's result as two layers. Its run ends with the result at one composed term of the
  arguments; that term is, with the gather of rows at the source positions and the accumulating scatter at the target
  positions named, "host layer (no rectifier) of the aggregated rectified first host layer". Each host layer is the
  whole-array layer of the general lemma file: the count vector read as a column, the bias vector as a row.
-/
import proofs.«133622_j26018911879756_2_alg».proof.Proof.Gen.ReferenceIdeal.Run
import proofs.«133622_j26018911879756_2_alg».proof.Proof.LibMeanLayer

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.LibMeanLayer

/-- The edges' source row. -/
def srcRow (e : IVec S2x1600000 32) : IVec S1600000 32 :=
  shapeCast S1600000 (extractStridedSlice S1x1600000 ![0, 0] e slices_S2x1600000_S1x1600000_0_0) shapeCasts_S1x1600000_S1600000

/-- The source positions as a one-column array, a negative position moved up by the number of nodes. -/
def srcPos (e : IVec S2x1600000 32) : IVec S1600000x1 32 :=
  broadcastInDim S1600000x1 ![0] bcast_S1600000_S1600000x1_0
    (select (cmpi .slt (srcRow e) (broadcastInDim S1600000 ![] bcast_S_S1600000 (constantI S_ 32 0#32)))
      (addi (srcRow e) (broadcastInDim S1600000 ![] bcast_S_S1600000 (constantI S_ 32 100000#32))) (srcRow e))

/-- The target positions as a one-column array. -/
def dstPos (e : IVec S2x1600000 32) : IVec S1600000x1 32 :=
  broadcastInDim S1600000x1 ![0] bcast_S1600000_S1600000x1_0
    (shapeCast S1600000 (extractStridedSlice S1x1600000 ![1, 0] e slices_S2x1600000_S1x1600000_1_0) shapeCasts_S1x1600000_S1600000)

/-- The neighbours' features summed into each target node: rows picked at the sources, accumulated at the targets. -/
def aggSum (x : FVec Ideal S100000x64 .f32) (e : IVec S2x1600000 32) : FVec Ideal S100000x64 .f32 :=
  Host.scatterAdd scatter_S100000x64_S1600000x1_S1600000x64_1_0_0_1
    (broadcastInDim S100000x64 ![] bcast_S_S100000x64 (constant S_ .f32 0x00000000#32)) (dstPos e)
    (Host.gather gather_S100000x64_S1600000x1_S1600000x64_1_0_n_n_0_1_164 x (srcPos e))

/-- The number of edges into each node, accumulated in f32 from ones. -/
def cntF (e : IVec S2x1600000 32) : FVec Ideal S100000 .f32 :=
  Host.scatterAdd scatter_S100000_S1600000x1_S1600000_n_0_0_1
    (broadcastInDim S100000 ![] bcast_S_S100000 (constant S_ .f32 0x00000000#32)) (dstPos e)
    (broadcastInDim S1600000 ![] bcast_S_S1600000 (constant S_ .f32 0x3F800000#32))

/-- One layer as the reference's host operations spell it. -/
def hostLayer (s x : FVec Ideal S100000x64 .f32) (cnt : FVec Ideal S100000 .f32) (Wl : FVec Ideal S64x64 .f32)
    (b : FVec Ideal S64 .f32) (Wr : FVec Ideal S64x64 .f32) : FVec Ideal S100000x64 .f32 :=
  addf (addf (Host.dotGeneral dot_S100000x64_S64x64_S100000x64_1_0_0_1_n_n none
                (Host.divf s (broadcastInDim S100000x64 ![0, 1] bcast_S100000x1_S100000x64_0_1 (broadcastInDim S100000x1 ![0] bcast_S100000_S100000x1_0
                  (maximumf cnt (broadcastInDim S100000 ![] bcast_S_S100000 (constant S_ .f32 0x3F800000#32))))))
                Wl)
             (broadcastInDim S100000x64 ![0, 1] bcast_S1x64_S100000x64_0_1 (broadcastInDim S1x64 ![1] bcast_S64_S1x64_1 b)))
       (Host.dotGeneral dot_S100000x64_S64x64_S100000x64_1_0_0_1_n_n none x Wr)

/-- The rectifier as the reference spells it. -/
def rect (v : FVec Ideal S100000x64 .f32) : FVec Ideal S100000x64 .f32 :=
  maximumf v (broadcastInDim S100000x64 ![] bcast_S_S100000x64 (constant S_ .f32 0x00000000#32))

/-- The run's result term is the second host layer of the aggregated, rectified first host layer. -/
theorem res_eq (m : (ℓ : Loc nD τ sig) → Buf (Elt Ideal) ℓ) (c : Dev nD) :
    Value.res_main_v54 (F := Ideal) m c
      = hostLayer
          (aggSum (rect (hostLayer (aggSum (m ((c.tc : Thread nD τ).loc main_arg0)) (m ((c.tc : Thread nD τ).loc main_arg1)))
              (m ((c.tc : Thread nD τ).loc main_arg0)) (cntF (m ((c.tc : Thread nD τ).loc main_arg1)))
              (m ((c.tc : Thread nD τ).loc main_arg2)) (m ((c.tc : Thread nD τ).loc main_arg3)) (m ((c.tc : Thread nD τ).loc main_arg4))))
            (m ((c.tc : Thread nD τ).loc main_arg1)))
          (rect (hostLayer (aggSum (m ((c.tc : Thread nD τ).loc main_arg0)) (m ((c.tc : Thread nD τ).loc main_arg1)))
              (m ((c.tc : Thread nD τ).loc main_arg0)) (cntF (m ((c.tc : Thread nD τ).loc main_arg1)))
              (m ((c.tc : Thread nD τ).loc main_arg2)) (m ((c.tc : Thread nD τ).loc main_arg3)) (m ((c.tc : Thread nD τ).loc main_arg4))))
          (cntF (m ((c.tc : Thread nD τ).loc main_arg1)))
          (m ((c.tc : Thread nD τ).loc main_arg5)) (m ((c.tc : Thread nD τ).loc main_arg6)) (m ((c.tc : Thread nD τ).loc main_arg7)) := by
  unfold Value.res_main_v54 hostLayer rect aggSum cntF srcPos dstPos srcRow
  rfl

/-- A host layer without the rectifier is the whole-array layer, the counts as a column and the bias as a row. -/
theorem hostLayer_eq (hcol : S100000.ShapeCasts S100000x1) (hrow : S64.ShapeCasts S1x64)
    (s x : FVec Ideal S100000x64 .f32) (cnt : FVec Ideal S100000 .f32) (Wl : FVec Ideal S64x64 .f32)
    (b : FVec Ideal S64 .f32) (Wr : FVec Ideal S64x64 .f32) :
    hostLayer s x cnt Wl b Wr
      = layer (n := 100000) (k := 64) (d := 64) false s x (shapeCast S100000x1 cnt hcol) Wl Wr (shapeCast S1x64 b hrow) :=
  host_layer_plain dot_S100000x64_S64x64_S100000x64_1_0_0_1_n_n_wf bcast_S_S100000 bcast_S100000_S100000x1_0
    bcast_S100000x1_S100000x64_0_1 bcast_S64_S1x64_1 bcast_S1x64_S100000x64_0_1 hcol hrow s x cnt Wl Wr b

/-- A rectified host layer is the whole-array layer with the rectifier. -/
theorem rect_hostLayer_eq (hcol : S100000.ShapeCasts S100000x1) (hrow : S64.ShapeCasts S1x64)
    (s x : FVec Ideal S100000x64 .f32) (cnt : FVec Ideal S100000 .f32) (Wl : FVec Ideal S64x64 .f32)
    (b : FVec Ideal S64 .f32) (Wr : FVec Ideal S64x64 .f32) :
    rect (hostLayer s x cnt Wl b Wr)
      = layer (n := 100000) (k := 64) (d := 64) true s x (shapeCast S100000x1 cnt hcol) Wl Wr (shapeCast S1x64 b hrow) :=
  host_layer_relu dot_S100000x64_S64x64_S100000x64_1_0_0_1_n_n_wf bcast_S_S100000 bcast_S100000_S100000x1_0
    bcast_S100000x1_S100000x64_0_1 bcast_S64_S1x64_1 bcast_S1x64_S100000x64_0_1 bcast_S_S100000x64 hcol hrow s x cnt Wl Wr b

end Cert.ReferenceIdeal.RefValue

end
-- ==== Proof.LibIndexOps.lean ====
/-
  Rows of a matrix (or entries of a vector) picked and accumulated by a list of integer positions, read at an index.

  A gather "x[idx]" along the leading axis reads, for list entry e, the row of x at position idx e, the position read as
  a signed integer and clamped into the rows of x. An accumulating scatter "y.at[idx].add(u)" adds, into row n of y, every
  list entry e's update whose position idx e, read as a signed integer and NOT clamped, is exactly n; an entry whose
  position is negative or past the last row contributes nothing. At the ideal values the accumulation is the exact sum,
  so the scattered array at (n, q) is y (n, q) plus the sum over the list entries e with idx e = n of u (e, q).
  Stated for the dimension numbers jax prints for these two operations on a matrix and on a vector, with the list of
  positions given as an [M, 1] array, for any extents.
-/
import Idealize.ShloMosaic.Lib.ValueIdx
import Idealize.ShloMosaic.PureOps.Ideal.Laws

noncomputable section

namespace Cert.LibIndexOps

open Idealize.ShloMosaic Idealize.ShloMosaic.ValueIdx
open scoped BigOperators

variable {α : Type} {N M D w : Nat}

/-! ## Gathering rows of a matrix -/

/-- The record of "x[idx]" for a matrix x : [N, D] and positions [M, 1]: whole rows, the leading axis collapsed. -/
abbrev rowsGather (N M D : Nat) (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- Entry (e, q) of the gathered rows: x at row "position e, clamped" and column q. -/
theorem gather_rows_apply (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (q : Fin D) :
    Host.gather (rowsGather N M D wf) x idx (ix2 e q)
      = x (ix2 (⟨min (idx (ix2 e (0 : Fin 1))).toInt.toNat (N - 1), by omega⟩ : Fin N) q) := by
  unfold Host.gather
  congr 1
  funext a
  refine Fin.ext ?_
  show (rowsGather N M D wf).start (ix2 e q) idx a + (rowsGather N M D wf).batchCoord (ix2 e q) a
    + (rowsGather N M D wf).offCoord (ix2 e q) a = _
  rw [GatherDims.batchCoord_eq_zero _ _ _ List.not_mem_nil]
  have key0 : (rowsGather N M D wf).start (ix2 e q) idx (0 : Fin 2) + 0 + (rowsGather N M D wf).offCoord (ix2 e q) (0 : Fin 2)
      = min (idx (ix2 e (0 : Fin 1))).toInt.toNat (N - 1) := by
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N M D wf).startIndexMap from List.mem_singleton.mpr rfl)]
    have hsi : (rowsGather N M D wf).siIdx (ix2 e q) ⟨List.idxOf (0 : Fin 2) (rowsGather N M D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have key1 : (rowsGather N M D wf).start (ix2 e q) idx (1 : Fin 2) + 0 + (rowsGather N M D wf).offCoord (ix2 e q) (1 : Fin 2)
      = q.val := by
    have hs : (rowsGather N M D wf).start (ix2 e q) idx (1 : Fin 2) = 0 := by
      unfold GatherDims.start
      rw [dif_neg (show (1 : Fin 2) ∉ ([0] : List (Fin 2)) by decide)]
    have ho : (rowsGather N M D wf).offCoord (ix2 e q) (1 : Fin 2) = q.val := by
      unfold GatherDims.offCoord
      rw [dif_pos ((GatherDims.mem_sKept _ _).2 ⟨(show (1 : Fin 2) ∉ ([0] : List (Fin 2)) by decide), List.not_mem_nil⟩)]
      rfl
    rw [hs, ho]; omega
  match a with
  | ⟨0, _⟩ => exact key0
  | ⟨1, _⟩ => exact key1

/-! ## Gathering entries of a vector -/

/-- The record of "x[idx]" for a vector x : [N] and positions [M, 1]. -/
abbrev vecGather (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Entry e of the gathered vector: x at "position e, clamped". -/
theorem gather_vec_apply (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecGather N M wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecGather N M wf).start (ix1 e) idx 0 + (vecGather N M wf).batchCoord (ix1 e) 0 + (vecGather N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N M wf).startIndexMap from List.mem_singleton.mpr rfl)]
  have hsi : (vecGather N M wf).siIdx (ix1 e) ⟨List.idxOf (0 : Fin 1) (vecGather N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Accumulating rows into a matrix -/

/-- The record of "y.at[idx].add(u)" for a matrix y : [N, D], positions [M, 1] and updates u : [M, D]. -/
abbrev rowsScatter (N M D : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Update (e, q') lands on entry (n, q) exactly when position e is n and the columns agree. -/
theorem rows_lands_iff (wf : ScatterDims.WF ⟨2, ![N, D]⟩ ⟨2, ![M, 1]⟩ ⟨2, ![M, D]⟩ [1] [0] [0] 1)
    (idx : IVec ⟨2, ![M, 1]⟩ w) (e : Fin M) (q' : Fin D) (n : Fin N) (q : Fin D) :
    (rowsScatter N M D wf).resultIdx? (ix2 e q') idx = some (ix2 n q)
      ↔ (idx (ix2 e (0 : Fin 1))).toInt = (n.val : Int) ∧ q' = q := by
  have s0 : (rowsScatter N M D wf).start (ix2 e q') idx (0 : Fin 2) = (idx (ix2 e (0 : Fin 1))).toInt := by
    unfold ScatterDims.start
    rw [dif_pos (show (0 : Fin 2) ∈ (rowsScatter N M D wf).scatterDimsToOperandDims from List.mem_singleton.mpr rfl)]
    congr 2
    funext b; refine Fin.ext ?_
    match b with
    | ⟨0, _⟩ => rfl
    | ⟨1, _⟩ => rfl
  have s1 : (rowsScatter N M D wf).start (ix2 e q') idx (1 : Fin 2) = 0 := by
    unfold ScatterDims.start
    rw [dif_neg (show (1 : Fin 2) ∉ ([0] : List (Fin 2)) by decide)]
  have w0 : (rowsScatter N M D wf).window (ix2 e q') (0 : Fin 2) = 0 := by
    unfold ScatterDims.window
    rw [dif_neg (show (0 : Fin 2) ∉ (rowsScatter N M D wf).sKept from (by decide : (0 : Fin 2) ∉ (List.finRange 2).filter (· ∉ ([0] : List (Fin 2)))))]
  have w1 : (rowsScatter N M D wf).window (ix2 e q') (1 : Fin 2) = q'.val := by
    unfold ScatterDims.window
    rw [dif_pos (show (1 : Fin 2) ∈ (rowsScatter N M D wf).sKept from (by decide : (1 : Fin 2) ∈ (List.finRange 2).filter (· ∉ ([0] : List (Fin 2)))))]
    rfl
  have hn := n.isLt
  have hq := q.isLt
  have hq' := q'.isLt
  unfold ScatterDims.resultIdx?
  split
  · next h =>
    rw [Option.some.injEq]
    constructor
    · intro hf
      have h0 : ((rowsScatter N M D wf).start (ix2 e q') idx (0 : Fin 2) + ((rowsScatter N M D wf).window (ix2 e q') (0 : Fin 2) : Int)).toNat = n.val :=
        congrArg (fun f : (⟨2, ![N, D]⟩ : Shape).Idx => (f 0).val) hf
      have h1 : ((rowsScatter N M D wf).start (ix2 e q') idx (1 : Fin 2) + ((rowsScatter N M D wf).window (ix2 e q') (1 : Fin 2) : Int)).toNat = q.val :=
        congrArg (fun f : (⟨2, ![N, D]⟩ : Shape).Idx => (f 1).val) hf
      have hh := (h 0).1
      rw [s0, w0] at h0 hh
      rw [s1, w1] at h1
      exact ⟨by omega, Fin.ext (by omega)⟩
    · rintro ⟨h0, rfl⟩
      funext a; refine Fin.ext ?_
      match a with
      | ⟨0, _⟩ =>
        show ((rowsScatter N M D wf).start (ix2 e q') idx (0 : Fin 2) + ((rowsScatter N M D wf).window (ix2 e q') (0 : Fin 2) : Int)).toNat = n.val
        rw [s0, w0]; omega
      | ⟨1, _⟩ =>
        show ((rowsScatter N M D wf).start (ix2 e q') idx (1 : Fin 2) + ((rowsScatter N M D wf).window (ix2 e q') (1 : Fin 2) : Int)).toNat = q'.val
        rw [s1, w1]; omega
  · next h =>
    constructor
    · intro hf; exact absurd hf (by simp)
    · rintro ⟨h0, rfl⟩
      exfalso; apply h; intro a
      match a with
      | ⟨0, _⟩ =>
        show 0 ≤ (rowsScatter N M D wf).start (ix2 e q') idx (0 : Fin 2) + ((rowsScatter N M D wf).window (ix2 e q') (0 : Fin 2) : Int)
          ∧ (rowsScatter N M D wf).start (ix2 e q') idx (0 : Fin 2) + ((rowsScatter N M D wf).window (ix2 e q') (0 : Fin 2) : Int) < (N : Int)
        rw [s0, w0]; omega
      | ⟨1, _⟩ =>
        show 0 ≤ (rowsScatter N M D wf).start (ix2 e q') idx (1 : Fin 2) + ((rowsScatter N M D wf).window (ix2 e q') (1 : Fin 2) : Int)
          ∧ (rowsScatter N M D wf).start (ix2 e q') idx (1 : Fin 2) + ((rowsScatter N M D wf).window (ix2 e q') (1 : Fin 2) : Int) < (D : Int)
        rw [s1, w1]; omega

/-- Entry (n, q) of the accumulated matrix at the ideal values: y (n, q) plus the updates of the list entries whose
    position is n, at column q. -/
theorem scatterAdd_rows_apply (wf : ScatterDims.WF ⟨2, ![N, D]⟩ ⟨2, ![M, 1]⟩ ⟨2, ![M, D]⟩ [1] [0] [0] 1)
    (y : FVec Ideal ⟨2, ![N, D]⟩ .f32) (idx : IVec ⟨2, ![M, 1]⟩ w) (u : FVec Ideal ⟨2, ![M, D]⟩ .f32) (n : Fin N) (q : Fin D) :
    Host.scatterAdd (rowsScatter N M D wf) y idx u (ix2 n q)
      = y (ix2 n q) + ∑ e : Fin M, if (idx (ix2 e (0 : Fin 1))).toInt = (n.val : Int) then u (ix2 e q) else 0 := by
  show Ideal.hostScatterAdd (rowsScatter N M D wf) y idx u (ix2 n q) = _
  unfold Ideal.hostScatterAdd
  congr 1
  rw [Finset.sum_filter, sum_idx2]
  refine Finset.sum_congr rfl fun e _ => ?_
  simp only [rows_lands_iff]
  by_cases h : (idx (ix2 e (0 : Fin 1))).toInt = (n.val : Int)
  · simp only [h, true_and, if_true]
    rw [Finset.sum_ite_eq' Finset.univ q (fun q' => u (ix2 e q'))]
    simp
  · simp [h]

/-! ## Accumulating entries into a vector -/

/-- The record of "y.at[idx].add(u)" for a vector y : [N], positions [M, 1] and updates u : [M]. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update e lands on entry n exactly when position e is n. -/
theorem vec_lands_iff (wf : ScatterDims.WF ⟨1, ![N]⟩ ⟨2, ![M, 1]⟩ ⟨1, ![M]⟩ [] [0] [0] 1)
    (idx : IVec ⟨2, ![M, 1]⟩ w) (e : Fin M) (n : Fin N) :
    (vecScatter N M wf).resultIdx? (ix1 e) idx = some (ix1 n) ↔ (idx (ix2 e (0 : Fin 1))).toInt = (n.val : Int) := by
  have s0 : (vecScatter N M wf).start (ix1 e) idx (0 : Fin 1) = (idx (ix2 e (0 : Fin 1))).toInt := by
    unfold ScatterDims.start
    rw [dif_pos (show (0 : Fin 1) ∈ (vecScatter N M wf).scatterDimsToOperandDims from List.mem_singleton.mpr rfl)]
    congr 2
    funext b; refine Fin.ext ?_
    match b with
    | ⟨0, _⟩ => rfl
    | ⟨1, _⟩ => rfl
  have w0 : (vecScatter N M wf).window (ix1 e) (0 : Fin 1) = 0 := by
    unfold ScatterDims.window
    rw [dif_neg (show (0 : Fin 1) ∉ (vecScatter N M wf).sKept from (by decide : (0 : Fin 1) ∉ (List.finRange 1).filter (· ∉ ([0] : List (Fin 1)))))]
  have hn := n.isLt
  unfold ScatterDims.resultIdx?
  split
  · next h =>
    rw [Option.some.injEq]
    constructor
    · intro hf
      have h0 : ((vecScatter N M wf).start (ix1 e) idx (0 : Fin 1) + ((vecScatter N M wf).window (ix1 e) (0 : Fin 1) : Int)).toNat = n.val :=
        congrArg (fun f : (⟨1, ![N]⟩ : Shape).Idx => (f 0).val) hf
      have hh := (h 0).1
      rw [s0, w0] at h0 hh
      omega
    · intro h0
      funext a; refine Fin.ext ?_
      obtain rfl : a = 0 := Subsingleton.elim _ _
      show ((vecScatter N M wf).start (ix1 e) idx (0 : Fin 1) + ((vecScatter N M wf).window (ix1 e) (0 : Fin 1) : Int)).toNat = n.val
      rw [s0, w0]; omega
  · next h =>
    constructor
    · intro hf; exact absurd hf (by simp)
    · intro h0
      exfalso; apply h; intro a
      obtain rfl : a = 0 := Subsingleton.elim _ _
      show 0 ≤ (vecScatter N M wf).start (ix1 e) idx (0 : Fin 1) + ((vecScatter N M wf).window (ix1 e) (0 : Fin 1) : Int)
        ∧ (vecScatter N M wf).start (ix1 e) idx (0 : Fin 1) + ((vecScatter N M wf).window (ix1 e) (0 : Fin 1) : Int) < (N : Int)
      rw [s0, w0]; omega

/-- Entry n of the accumulated vector at the ideal values: y n plus the updates of the list entries whose position is n. -/
theorem scatterAdd_vec_apply (wf : ScatterDims.WF ⟨1, ![N]⟩ ⟨2, ![M, 1]⟩ ⟨1, ![M]⟩ [] [0] [0] 1)
    (y : FVec Ideal ⟨1, ![N]⟩ .f32) (idx : IVec ⟨2, ![M, 1]⟩ w) (u : FVec Ideal ⟨1, ![M]⟩ .f32) (n : Fin N) :
    Host.scatterAdd (vecScatter N M wf) y idx u (ix1 n)
      = y (ix1 n) + ∑ e : Fin M, if (idx (ix2 e (0 : Fin 1))).toInt = (n.val : Int) then u (ix1 e) else 0 := by
  show Ideal.hostScatterAdd (vecScatter N M wf) y idx u (ix1 n) = _
  unfold Ideal.hostScatterAdd
  congr 1
  rw [Finset.sum_filter]
  have hsum : ∀ f : (⟨1, ![M]⟩ : Shape).Idx → EReal, ∑ j, f j = ∑ e : Fin M, f (ix1 e) := fun f =>
    (Equiv.sum_comp (⟨fun e => ix1 e, fun j => j 0, fun _ => rfl, fun j => (eq_ix1 j).symm⟩ : Fin M ≃ (⟨1, ![M]⟩ : Shape).Idx) f).symm
  rw [hsum]
  refine Finset.sum_congr rfl fun e _ => ?_
  simp only [vec_lands_iff]

end Cert.LibIndexOps

end
-- ==== Proof.LibScatterCount.lean ====
/-
  Counting the entries of a list of integer positions that point at each entry of a vector, in the 32-bit integers and in
  the floats.

  An accumulating scatter "y.at[idx].add(u)" is computed as a left fold over the updates, in row-major order: the step for
  one update replaces the entry it lands on by that entry plus the update, and leaves the array alone when the update
  lands outside it. When the addition is that of a commutative monoid, the fold read at one entry i is y i plus the sum
  of the updates that land on i; this holds for every scatter, and for the accumulating scatter into a vector with
  positions given as an [M, 1] array it reads: entry n is y n plus the sum of u e over the list entries e whose position,
  read as a signed integer, is exactly n. In the 32-bit words this sum is taken modulo 2^32.

  With y = 0 and every update 1, entry n is therefore the number k of list entries pointing at n, as a 32-bit word. Since
  k ≤ M < 2^31, that word read as a signed integer is k itself (no wrap), and its conversion to a float is, at the ideal
  values, the real number k. The float accumulating scatter of the updates 1.0 into zeros gives, at the ideal values, the
  exact sum 0 + 1 + … + 1 = k as well. So converting the integer count to a float and counting in the floats give the
  same vector, for any extents N and M < 2^31.
-/
import Mathlib.Data.BitVec
import proofs.«133622_j26018911879756_2_alg».proof.Proof.LibIndexOps

noncomputable section

namespace Cert.LibScatterCount

open Idealize.ShloMosaic Idealize.ShloMosaic.ValueIdx Cert.LibIndexOps
open scoped BigOperators

/-! ## A left fold of additive steps, read at an index -/

/-- A left fold over a list, each step of which adds to every entry i either the step's update (when the step lands on
    i) or nothing: read at i, the result is the starting entry plus the sum, over the list, of the updates landing on
    i. -/
theorem foldl_step_add_apply {ι κ A : Type} [AddCommMonoid A]
    (step : (ι → A) → κ → ι → A) (land : κ → ι → Prop) [∀ k i, Decidable (land k i)] (upd : κ → A)
    (hstep : ∀ r k i, step r k i = r i + if land k i then upd k else 0)
    (l : List κ) (x : ι → A) (i : ι) :
    l.foldl step x i = x i + (l.map fun k => if land k i then upd k else 0).sum := by
  induction l generalizing x with
  | nil => simp
  | cons a l ih => rw [List.foldl_cons, ih, hstep, List.map_cons, List.sum_cons, add_assoc]

/-! ## An accumulating scatter in a commutative monoid -/

/-- A scatter whose body is the sum of a commutative monoid, read at an entry: the entry plus the sum of the updates
    that land on it (an update landing outside the array contributes nothing). -/
theorem scatter_add_apply {α : Type} [AddCommMonoid α] {s si su : Shape} {w : Nat} (d : ScatterDims s si su)
    (f : α → α → α) (hf : ∀ a b, f a b = a + b) (x : s.Idx → α) (idx : IVec si w) (upd : su.Idx → α) (i : s.Idx) :
    Host.scatter d f x idx upd i = x i + ∑ j : su.Idx, if d.resultIdx? j idx = some i then upd j else 0 := by
  unfold Host.scatter
  refine (foldl_step_add_apply _ (fun k i => d.resultIdx? (su.rowMajor.symm k) idx = some i)
    (fun k => upd (su.rowMajor.symm k)) ?_ _ x i).trans ?_
  · -- one step of the fold: the entry the update lands on gains the update, every other entry is unchanged
    intro r k i
    cases h : d.resultIdx? (su.rowMajor.symm k) idx with
    | none => simp
    | some i0 =>
      by_cases hi : i = i0
      · subst hi; simp [hf]
      · have hi' : ¬ i0 = i := fun e => hi e.symm
        simp [hi, hi']
  · -- the sum over the list of row-major positions is the sum over the update's indices
    congr 1
    rw [← Fin.sum_univ_def]
    exact Equiv.sum_comp su.rowMajor.symm (fun j => if d.resultIdx? j idx = some i then upd j else 0)

/-- The integer accumulating scatter into a vector, read at entry n: y n plus the updates of the list entries whose
    position is n, summed in the 32-bit words. -/
theorem scatterAddi_vec_apply {N M w : Nat} (wf : ScatterDims.WF ⟨1, ![N]⟩ ⟨2, ![M, 1]⟩ ⟨1, ![M]⟩ [] [0] [0] 1)
    (y : IVec ⟨1, ![N]⟩ 32) (idx : IVec ⟨2, ![M, 1]⟩ w) (u : IVec ⟨1, ![M]⟩ 32) (n : Fin N) :
    Host.scatter (vecScatter N M wf) IntOp.addi y idx u (ix1 n)
      = y (ix1 n) + ∑ e : Fin M, if (idx (ix2 e (0 : Fin 1))).toInt = (n.val : Int) then u (ix1 e) else 0 := by
  rw [scatter_add_apply (vecScatter N M wf) IntOp.addi (fun _ _ => rfl)]
  congr 1
  have hsum : ∀ g : (⟨1, ![M]⟩ : Shape).Idx → BitVec 32, ∑ j, g j = ∑ e : Fin M, g (ix1 e) := fun g =>
    (Equiv.sum_comp (⟨fun e => ix1 e, fun j => j 0, fun _ => rfl, fun j => (eq_ix1 j).symm⟩ : Fin M ≃ (⟨1, ![M]⟩ : Shape).Idx) g).symm
  rw [hsum]
  refine Finset.sum_congr rfl fun e _ => ?_
  simp only [vec_lands_iff]

/-! ## The count of the entries pointing at n, in the integers and in the floats -/

/-- A natural number below 2^31, as a 32-bit word read signed, is itself. -/
theorem toInt_natCast_of_lt {k : Nat} (hk : k < 2 ^ 31) : ((k : BitVec 32)).toInt = (k : Int) := by
  rw [BitVec.natCast_eq_ofNat, BitVec.toInt_ofNat']
  exact Int.bmod_eq_of_le_mul_two (by omega) (by omega)

/-- Counting the list entries whose position is n, once in the 32-bit words and converted to a float afterwards, once
    in the floats: at the ideal values both are the number of those entries, because a count of at most M < 2^31
    entries does not wrap in the signed 32-bit words. -/
theorem count_sitofp_eq {N M w : Nat} (wf : ScatterDims.WF ⟨1, ![N]⟩ ⟨2, ![M, 1]⟩ ⟨1, ![M]⟩ [] [0] [0] 1)
    (hM : M < 2 ^ 31) (idx : IVec ⟨2, ![M, 1]⟩ w)
    (y : IVec ⟨1, ![N]⟩ 32) (u : IVec ⟨1, ![M]⟩ 32) (yf : FVec Ideal ⟨1, ![N]⟩ .f32) (uf : FVec Ideal ⟨1, ![M]⟩ .f32)
    (hy : ∀ i, y i = 0#32) (hu : ∀ j, u j = 1#32) (hyf : ∀ i, yf i = 0) (huf : ∀ j, uf j = 1) :
    (sitofp .f32 (Host.scatter (vecScatter N M wf) IntOp.addi y idx u) : FVec Ideal ⟨1, ![N]⟩ .f32)
      = Host.scatterAdd (vecScatter N M wf) yf idx uf := by
  funext j
  obtain ⟨n, rfl⟩ : ∃ n, j = ix1 n := ⟨j 0, eq_ix1 j⟩
  rw [sitofp_apply, scatterAddi_vec_apply, scatterAdd_vec_apply]
  simp only [hy, hu, hyf, huf]
  -- k, the number of list entries pointing at n, is at most M
  have hk : (Finset.univ.filter fun e : Fin M => (idx (ix2 e (0 : Fin 1))).toInt = (n.val : Int)).card < 2 ^ 31 :=
    lt_of_le_of_lt ((Finset.card_filter_le _ _).trans (by simp)) hM
  -- the integer side is k as a 32-bit word
  have hb : (0#32 + ∑ e : Fin M, if (idx (ix2 e (0 : Fin 1))).toInt = (n.val : Int) then 1#32 else 0 : BitVec 32)
      = ((Finset.univ.filter fun e : Fin M => (idx (ix2 e (0 : Fin 1))).toInt = (n.val : Int)).card : BitVec 32) := by
    rw [← Finset.sum_boole]
    exact zero_add _
  -- the float side is k as an extended real; the word k read signed is k, and its conversion is the real number k
  rw [hb, Finset.sum_boole, zero_add]
  show (((((Finset.univ.filter fun e : Fin M => (idx (ix2 e (0 : Fin 1))).toInt = (n.val : Int)).card : BitVec 32)).toInt : ℝ) : EReal) = _
  rw [toInt_natCast_of_lt hk, Int.cast_natCast]
  rfl

end Cert.LibScatterCount

end
-- ==== Proof.Bridge.lean ====
/-
  The two programs compute one function of the eight arguments.

  Write agg(y) for the neighbours' rows of y summed into each target node (rows gathered at the edges' source
  positions, accumulated at their target positions), cnt for the number of edges into each node, and
  layer(s, y, W_l, b, W_r)(p, q) = (Σ_c (s(p,c) / max(cnt(p), 1))·W_l(c,q) + b(q)) + Σ_c y(p,c)·W_r(c,q).
  Both programs end with  layer(agg(h), h, W2_l, b2, W2_r),  h = max(layer(agg(x), x, W1_l, b1, W1_r), 0).
  The kernel program: its result array is what the second region's write-backs leave, the layer of the arrays that
  region finds, which are agg of the first region's output, the count column, that output, and the second layer's
  parameters; the first region's output is the rectified layer of agg(x), the count column, x and the first layer's
  parameters. The reference: its composed term is two host layers, each the same whole-array layer.
  The two differ in one place only: the kernel counts the incoming edges in 32-bit integers and converts the count
  to a float, the reference counts in floats. A count of at most 1600000 < 2^31 edges does not wrap, so on the
  extended reals the two count vectors are equal. The gather, the accumulating scatter of rows and the casts of the
  counts and the biases are the same operations in both programs.
-/
import proofs.«133622_j26018911879756_2_alg».proof.Proof.KernelRun
import proofs.«133622_j26018911879756_2_alg».proof.Proof.KernelHost
import proofs.«133622_j26018911879756_2_alg».proof.Proof.KernelLayer0
import proofs.«133622_j26018911879756_2_alg».proof.Proof.KernelLayer1
import proofs.«133622_j26018911879756_2_alg».proof.Proof.RefValue
import proofs.«133622_j26018911879756_2_alg».proof.Proof.LibScatterCount

set_option maxRecDepth 16384

noncomputable section

namespace Cert.Bridge

open Idealize.ShloMosaic Idealize.ShloMosaic.TcCoe Idealize.ShloMosaic.ValueIdx Idealize.SL.Sem
open Cert.LibMeanLayer

/-- The count vector as a column. -/
abbrev colOf (cnt : FVec Ideal ⟨1, ![100000]⟩ .f32) : FVec Ideal ⟨2, ![100000, 1]⟩ .f32 :=
  shapeCast ⟨2, ![100000, 1]⟩ cnt Cert.KernelIdeal.Gen.shapeCasts_S100000_S100000x1

/-- A bias vector as a row. -/
abbrev rowOf (b : FVec Ideal ⟨1, ![64]⟩ .f32) : FVec Ideal ⟨2, ![1, 64]⟩ .f32 :=
  shapeCast ⟨2, ![1, 64]⟩ b Cert.KernelIdeal.Gen.shapeCasts_S64_S1x64

/-- The first layer's output: the rectified layer of the aggregated node features. -/
def hidden (x : FVec Ideal ⟨2, ![100000, 64]⟩ .f32) (e : IVec ⟨2, ![2, 1600000]⟩ 32) (W1l : FVec Ideal ⟨2, ![64, 64]⟩ .f32)
    (b1 : FVec Ideal ⟨1, ![64]⟩ .f32) (W1r : FVec Ideal ⟨2, ![64, 64]⟩ .f32) : FVec Ideal ⟨2, ![100000, 64]⟩ .f32 :=
  layer true (Cert.ReferenceIdeal.RefValue.aggSum x e) x (colOf (Cert.ReferenceIdeal.RefValue.cntF e)) W1l W1r (rowOf b1)

/-- Both layers: the result of either program as one function of the eight arguments. -/
def net (x : FVec Ideal ⟨2, ![100000, 64]⟩ .f32) (e : IVec ⟨2, ![2, 1600000]⟩ 32) (W1l : FVec Ideal ⟨2, ![64, 64]⟩ .f32)
    (b1 : FVec Ideal ⟨1, ![64]⟩ .f32) (W1r W2l : FVec Ideal ⟨2, ![64, 64]⟩ .f32) (b2 : FVec Ideal ⟨1, ![64]⟩ .f32)
    (W2r : FVec Ideal ⟨2, ![64, 64]⟩ .f32) : FVec Ideal ⟨2, ![100000, 64]⟩ .f32 :=
  layer false (Cert.ReferenceIdeal.RefValue.aggSum (hidden x e W1l b1 W1r) e) (hidden x e W1l b1 W1r)
    (colOf (Cert.ReferenceIdeal.RefValue.cntF e)) W2l W2r (rowOf b2)

/-- Equal arrays give equal layers. -/
theorem layer_congr (relu : Bool) {s s' x x' : FVec Ideal ⟨2, ![100000, 64]⟩ .f32} {cnt cnt' : FVec Ideal ⟨2, ![100000, 1]⟩ .f32}
    {Wl Wl' Wr Wr' : FVec Ideal ⟨2, ![64, 64]⟩ .f32} {b b' : FVec Ideal ⟨2, ![1, 64]⟩ .f32}
    (hs : s = s') (hx : x = x') (hc : cnt = cnt') (hl : Wl = Wl') (hr : Wr = Wr') (hb : b = b') :
    layer relu s x cnt Wl Wr b = layer relu s' x' cnt' Wl' Wr' b' := by
  subst hs hx hc hl hr hb; rfl

/-! ## The kernel program's host side is the reference's -/

/-- The aggregation is the same operations in both programs. -/
theorem aggSum_eq (x : FVec Ideal ⟨2, ![100000, 64]⟩ .f32) (e : IVec ⟨2, ![2, 1600000]⟩ 32) :
    Cert.KernelIdeal.HostSide.aggSum (F := Ideal) x e = Cert.ReferenceIdeal.RefValue.aggSum x e := rfl

/-- The kernel program's count column (counted in 32-bit integers, converted, kept as a column) is the reference's
    count vector (counted in floats) as a column: at most 1600000 < 2^31 edges, so the integer count does not wrap. -/
theorem cntCol_eq (e : IVec ⟨2, ![2, 1600000]⟩ 32) :
    Cert.KernelIdeal.HostSide.cntCol (F := Ideal) e = colOf (Cert.ReferenceIdeal.RefValue.cntF e) := by
  refine congrArg (fun v : FVec Ideal ⟨1, ![100000]⟩ .f32 => shapeCast ⟨2, ![100000, 1]⟩ v Cert.KernelIdeal.Gen.shapeCasts_S100000_S100000x1) ?_
  exact Cert.LibScatterCount.count_sitofp_eq (N := 100000) (M := 1600000)
    Cert.KernelIdeal.Gen.scatter_S100000_S1600000x1_S1600000_n_0_0_1_wf (by norm_num)
    (Cert.KernelIdeal.HostSide.dstPos e) _ _ _ _ (fun _ => rfl) (fun _ => rfl)
    (fun _ => Ideal.ofBits_zero_f32) (fun _ => Ideal.ofBits_one_f32)

/-! ## The kernel program's result -/

section Kernel
open Cert.KernelIdeal Cert.KernelIdeal.Gen Cert.KernelIdeal.HostSide

variable (m : (ℓ : Loc nD τ sig) → Buf (Elt Ideal) ℓ) (ρ : Dev nD → PrngReg) (c : Dev nD)

/-- The first region's output is the rectified first layer of the launch arrays. -/
theorem out0_eq : out0 m ρ c
    = hidden (m ((c : Thread nD τ).loc main_arg0)) (m ((c : Thread nD τ).loc main_arg1)) (m ((c : Thread nD τ).loc main_arg2))
        (m ((c : Thread nD τ).loc main_arg3)) (m ((c : Thread nD τ).loc main_arg4)) :=
  (Cert.KernelIdeal.Layer0.final (V1 m ρ) c).trans
    (layer_congr true ((V1_v13 m ρ c).trans (aggSum_eq _ _)) (V1_arg0 m ρ c) ((V1_v19 m ρ c).trans (cntCol_eq _))
      (V1_arg2 m ρ c) (V1_arg4 m ρ c) (V1_v20 m ρ c))

/-- The kernel program's result array is the two layers of the launch arrays. -/
theorem result_value : W4 m ρ c (Proc.devRef .tc main_v39)
    = net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) :=
  (result_eq m ρ c).trans ((Cert.KernelIdeal.Layer1.final (V3 m ρ) c).trans
    (layer_congr false
      ((V3_v31 m ρ c).trans ((aggSum_eq _ _).trans (congrArg (fun y => Cert.ReferenceIdeal.RefValue.aggSum y _) (out0_eq m ρ c))))
      ((V3_v21 m ρ c).trans (out0_eq m ρ c)) ((V3_v37 m ρ c).trans (cntCol_eq _))
      (V3_arg5 m ρ c) (V3_arg7 m ρ c) (V3_v38 m ρ c)))

/-- The kernel program's run with its result named: the two layers of the launch arrays, the arguments unchanged. -/
theorem kernel_run : θ_run defs (onTc (τ := τ) (main (F := Ideal))) ⟨m, fun _ => 0, ρ⟩ (fun r => ∀ c : Dev nD,
      r.2.mem ((c.tc : Thread nD τ).loc main_v39)
        = net (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_value m ρ c), (h c).2⟩)
    (Cert.KernelIdeal.RunValue.run_value (F := Ideal) m ρ)

end Kernel

/-! ## The reference's result -/

section Reference
open Cert.ReferenceIdeal Cert.ReferenceIdeal.Gen Cert.ReferenceIdeal.RefValue

variable (m : (ℓ : Loc nD τ sig) → Buf (Elt Ideal) ℓ) (c : Dev nD)

/-- The reference's result term is the two layers of its launch arrays. -/
theorem ref_value : Cert.ReferenceIdeal.Value.res_main_v54 (F := Ideal) m c
    = net (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  rw [res_eq m c,
    rect_hostLayer_eq Cert.KernelIdeal.Gen.shapeCasts_S100000_S100000x1 Cert.KernelIdeal.Gen.shapeCasts_S64_S1x64,
    hostLayer_eq Cert.KernelIdeal.Gen.shapeCasts_S100000_S100000x1 Cert.KernelIdeal.Gen.shapeCasts_S64_S1x64]
  rfl

end Reference

end Cert.Bridge

end
-- ==== Proof.lean ====
/-
  A two-layer graph network with mean aggregation: the kernel program against the jnp reference, on the extended reals.

  For node features x (100000 × 64), an edge list of 1600000 (source, target) pairs, and per layer two 64 × 64
  weight matrices and a bias, a layer maps features y to
      layer(y)(p, q) = ( Σ_c (agg(y)(p,c) / max(cnt(p), 1)) · W_l(c,q) + b(q) ) + Σ_c y(p,c) · W_r(c,q),
  where agg(y) sums the rows of y over the edges into each target node and cnt counts those edges; the network is
  layer₂(max(layer₁(x), 0)). The kernel program computes agg and cnt by host operations and each layer in a
  pallas_call over ten blocks of 10000 rows (its two matrix products take bf16-rounded operands, which changes nothing
  on the extended reals); the reference computes everything by host operations.

  The three frames: the two kernel programs' are the generated frame certificates; the reference's is its
  generated run with the result dropped. The kernel's idealization rewrote nothing, so there is nothing to preserve.
  The value claim: both runs end with the result at one function of the arguments (the bridge module): the
  kernel program's by its run with the result array named, each region's array read off its write-backs block by
  block, and the host stretches read back; the reference's by its run's composed term. The programs differ only in
  how the edges into a node are counted (32-bit integers converted to a float, against floats), which agree because
  the count cannot wrap. No finiteness of the inputs is needed: the two sides are the same expression term by term.
-/
import proofs.«133622_j26018911879756_2_alg».proof.Defs
import proofs.«133622_j26018911879756_2_alg».proof.Proof.Gen.Kernel
import proofs.«133622_j26018911879756_2_alg».proof.Proof.Gen.Kernel.Skeleton
import proofs.«133622_j26018911879756_2_alg».proof.Proof.Gen.Kernel.Launch
import proofs.«133622_j26018911879756_2_alg».proof.Proof.Gen.Kernel.Points
import proofs.«133622_j26018911879756_2_alg».proof.Proof.Gen.Kernel.Frame
import proofs.«133622_j26018911879756_2_alg».proof.Proof.Gen.KernelIdeal
import proofs.«133622_j26018911879756_2_alg».proof.Proof.Gen.KernelIdeal.Skeleton
import proofs.«133622_j26018911879756_2_alg».proof.Proof.Gen.KernelIdeal.Launch
import proofs.«133622_j26018911879756_2_alg».proof.Proof.Gen.KernelIdeal.Points
import proofs.«133622_j26018911879756_2_alg».proof.Proof.Gen.KernelIdeal.Frame
import proofs.«133622_j26018911879756_2_alg».proof.Proof.Gen.ReferenceIdeal
import proofs.«133622_j26018911879756_2_alg».proof.Proof.Gen.Pre_finite_inputs
import proofs.«133622_j26018911879756_2_alg».proof.Proof.Gen.ReferenceIdeal.Run
import proofs.«133622_j26018911879756_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both runs end with the result at the same function of the arguments. -/
theorem algebraic : Cert.algebraic_KernelIdeal_ReferenceIdeal := by
  intro m ρ m' ρ' _ hagree
  refine ⟨_, Cert.Bridge.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.Bridge.ref_value m' c, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
